-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024 : Shape := ⟨2, ![1024, 1024]⟩
abbrev S1024x64x2048 : Shape := ⟨3, ![1024, 64, 2048]⟩
abbrev S1024x512 : Shape := ⟨2, ![1024, 512]⟩
abbrev S512 : Shape := ⟨1, ![512]⟩
abbrev S2048x512 : Shape := ⟨2, ![2048, 512]⟩
abbrev S512x1 : Shape := ⟨2, ![512, 1]⟩
abbrev S1 : Shape := ⟨1, ![1]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x64x2048 : S_.BroadcastsInDim S1024x64x2048 (![] : Fin 0 → Fin S1024x64x2048.rank)
  reducesTo_S1024x64x2048_S_d0_1_2 : S1024x64x2048.ReducesTo [0, 1, 2] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S2048x512 : S_.BroadcastsInDim S2048x512 (![] : Fin 0 → Fin S2048x512.rank)
  reducesTo_S2048x512_S_d0_1 : S2048x512.ReducesTo [0, 1] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S2048x512 .f32) (main_arg5 : FVec F S512 .f32) (main_arg6 : FVec F S512x1 .f32) (main_arg7 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S2048x512 .f32 := Host.absf main_arg4
  let main_cst_6 : FVec F S_ .f32 := constant S_ .f32 0x7F800000#32
  let main_v20 : FVec F S2048x512 .f32 := broadcastInDim S2048x512 ![] bcast_S_S2048x512 main_cst_6
  let main_v21 : IVec S2048x512 1 := cmpf .olt main_v19 main_v20
  let main_c_7 : IVec S_ 1 := constantI S_ 1 1#1
  let main_v22 : IVec S_ 1 := (fun x v => Host.reduce IntOp.andi x v reducesTo_S2048x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x1 .f32 := Host.absf main_arg6
  let main_cst_10 : FVec F S_ .f32 := constant S_ .f32 0x7F800000#32
  let main_v30 : FVec F S512x1 .f32 := broadcastInDim S512x1 ![] bcast_S_S512x1 main_cst_10
  let main_v31 : IVec S512x1 1 := cmpf .olt main_v29 main_v30
  let main_c_11 : IVec S_ 1 := constantI S_ 1 1#1
  let main_v32 : IVec S_ 1 := (fun x v => Host.reduce IntOp.andi x v reducesTo_S512x1_S_d0_1 h_S_) main_v31 main_c_11
  let main_v33 : IVec S_ 1 := andi main_v28 main_v32
  fn_part2 (F := F) main_arg7 main_v33

def fn {F : FTy → Type} [FloatOps F] (main_arg0 : FVec F S1024x1024 .f32) (main_arg1 : FVec F S1024x64x2048 .f32) (main_arg2 : FVec F S1024x512 .f32) (main_arg3 : FVec F S512 .f32) (main_arg4 : FVec F S2048x512 .f32) (main_arg5 : FVec F S512 .f32) (main_arg6 : FVec F S512x1 .f32) (main_arg7 : FVec F S1 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x64x2048 .f32 := Host.absf main_arg1
  let main_cst_0 : FVec F S_ .f32 := constant S_ .f32 0x7F800000#32
  let main_v5 : FVec F S1024x64x2048 .f32 := broadcastInDim S1024x64x2048 ![] bcast_S_S1024x64x2048 main_cst_0
  let main_v6 : IVec S1024x64x2048 1 := cmpf .olt main_v4 main_v5
  let main_c_1 : IVec S_ 1 := constantI S_ 1 1#1
  let main_v7 : IVec S_ 1 := (fun x v => Host.reduce IntOp.andi x v reducesTo_S1024x64x2048_S_d0_1_2 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S1024x1024 : Shape := ⟨2, ![1024, 1024]⟩
abbrev S1024x64x2048 : Shape := ⟨3, ![1024, 64, 2048]⟩
abbrev S1024x512 : Shape := ⟨2, ![1024, 512]⟩
abbrev S512 : Shape := ⟨1, ![512]⟩
abbrev S2048x512 : Shape := ⟨2, ![2048, 512]⟩
abbrev S512x1 : Shape := ⟨2, ![512, 1]⟩
abbrev S1 : Shape := ⟨1, ![1]⟩
abbrev S1x512 : Shape := ⟨2, ![1, 512]⟩
abbrev S1x1 : Shape := ⟨2, ![1, 1]⟩
abbrev S1024x2048 : Shape := ⟨2, ![1024, 2048]⟩
abbrev S1024x64 : Shape := ⟨2, ![1024, 64]⟩
abbrev S16x1024 : Shape := ⟨2, ![16, 1024]⟩
abbrev S16x64x2048 : Shape := ⟨3, ![16, 64, 2048]⟩
abbrev S16x2048 : Shape := ⟨2, ![16, 2048]⟩
abbrev S16x64 : Shape := ⟨2, ![16, 64]⟩
abbrev S16x512 : Shape := ⟨2, ![16, 512]⟩
abbrev S1x1x512 : Shape := ⟨3, ![1, 1, 512]⟩
abbrev S16x16x2048 : Shape := ⟨3, ![16, 16, 2048]⟩
abbrev S256x2048 : Shape := ⟨2, ![256, 2048]⟩
abbrev S256x512 : Shape := ⟨2, ![256, 512]⟩
abbrev S16x16x512 : Shape := ⟨3, ![16, 16, 512]⟩
abbrev S16x1x512 : Shape := ⟨3, ![16, 1, 512]⟩
abbrev S16x16 : Shape := ⟨2, ![16, 16]⟩
abbrev S16 : Shape := ⟨1, ![16]⟩
abbrev S16x1 : Shape := ⟨2, ![16, 1]⟩
abbrev S16x16x1 : Shape := ⟨3, ![16, 16, 1]⟩
abbrev S1024x64x1 : Shape := ⟨3, ![1024, 64, 1]⟩

abbrev nBuf : Space → Nat
  | .hbm => 17
  | .vmem => 15
  | .smem => 0
  | _ => 0

abbrev bufTy : (tb : Table) → Fin (tcTables nBuf tb) → BufTy
  | .hbm, ⟨0, _⟩ => ⟨S1024x1024, .f32⟩
  | .hbm, ⟨1, _⟩ => ⟨S1024x64x2048, .f32⟩
  | .hbm, ⟨2, _⟩ => ⟨S1024x512, .f32⟩
  | .hbm, ⟨3, _⟩ => ⟨S512, .f32⟩
  | .hbm, ⟨4, _⟩ => ⟨S2048x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S1024x512, .bf16⟩
  | .hbm, ⟨9, _⟩ => ⟨S2048x512, .bf16⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S1x1, .f32⟩
  | .hbm, ⟨14, _⟩ => ⟨S1024x2048, .f32⟩
  | .hbm, ⟨15, _⟩ => ⟨S1024x64, .f32⟩
  | .hbm, ⟨16, _⟩ => ⟨S1024x64x1, .f32⟩
  | .local _ .vmem, ⟨0, _⟩ => ⟨S16x1024, .f32⟩
  | .local _ .vmem, ⟨1, _⟩ => ⟨S16x1024, .f32⟩
  | .local _ .vmem, ⟨2, _⟩ => ⟨S16x64x2048, .f32⟩
  | .local _ .vmem, ⟨3, _⟩ => ⟨S16x64x2048, .f32⟩
  | .local _ .vmem, ⟨4, _⟩ => ⟨S1024x512, .bf16⟩
  | .local _ .vmem, ⟨5, _⟩ => ⟨S1x512, .f32⟩
  | .local _ .vmem, ⟨6, _⟩ => ⟨S2048x512, .bf16⟩
  | .local _ .vmem, ⟨7, _⟩ => ⟨S1x512, .f32⟩
  | .local _ .vmem, ⟨8, _⟩ => ⟨S1x512, .f32⟩
  | .local _ .vmem, ⟨9, _⟩ => ⟨S1x1, .f32⟩
  | .local _ .vmem, ⟨10, _⟩ => ⟨S16x2048, .f32⟩
  | .local _ .vmem, ⟨11, _⟩ => ⟨S16x2048, .f32⟩
  | .local _ .vmem, ⟨12, _⟩ => ⟨S16x64, .f32⟩
  | .local _ .vmem, ⟨13, _⟩ => ⟨S16x64, .f32⟩
  | .local _ .vmem, ⟨14, _⟩ => ⟨S16x64, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S16x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  shapeCasts_S512_S1x512 : S512.ShapeCasts S1x512
  transposes_S512x1_S1x512_1_0 : S512x1.Transposes [1, 0] S1x512
  shapeCasts_S1_S1x1 : S1.ShapeCasts S1x1
  inb_S16x1024_S16x1024_0_0 : ∀ a, (![0, 0] : Fin 2 → Nat) a + S16x1024.size a ≤ S16x1024.size a
  h_S16x1024 : 0 < S16x1024.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S16x512 : S1x512.Broadcasts S16x512
  shapeCasts_S1x512_S1x1x512 : S1x512.ShapeCasts S1x1x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S16x64x2048_S16x16x2048_0_0_0 : ∀ a, (![0, 0, 0] : Fin 3 → Nat) a + S16x16x2048.size a ≤ S16x64x2048.size a
  h_S16x16x2048 : 0 < S16x16x2048.numel
  shapeCasts_S16x16x2048_S256x2048 : S16x16x2048.ShapeCasts S256x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  shapeCasts_S256x512_S16x16x512 : S256x512.ShapeCasts S16x16x512
  broadcasts_S1x1x512_S16x16x512 : S1x1x512.Broadcasts S16x16x512
  shapeCasts_S16x512_S16x1x512 : S16x512.ShapeCasts S16x1x512
  broadcasts_S16x1x512_S16x16x512 : S16x1x512.Broadcasts S16x16x512
  reduces_S16x16x512_S16x16 : S16x16x512.Reduces [2] S16x16
  broadcasts_S1x1_S16x16 : S1x1.Broadcasts S16x16
  inb_S16x64_S16x16_0_0 : ∀ a, (![0, 0] : Fin 2 → Nat) a + S16x16.size a ≤ S16x64.size a
  h_S16x16 : 0 < S16x16.numel
  shapeCasts_S16x16_S16x16 : S16x16.ShapeCasts S16x16
  inb_S16x64x2048_S16x16x2048_0_16_0 : ∀ a, (![0, 16, 0] : Fin 3 → Nat) a + S16x16x2048.size a ≤ S16x64x2048.size a
  inb_S16x64_S16x16_0_16 : ∀ a, (![0, 16] : Fin 2 → Nat) a + S16x16.size a ≤ S16x64.size a
  inb_S16x64x2048_S16x16x2048_0_32_0 : ∀ a, (![0, 32, 0] : Fin 3 → Nat) a + S16x16x2048.size a ≤ S16x64x2048.size a
  inb_S16x64_S16x16_0_32 : ∀ a, (![0, 32] : Fin 2 → Nat) a + S16x16.size a ≤ S16x64.size a
  inb_S16x64x2048_S16x16x2048_0_48_0 : ∀ a, (![0, 48, 0] : Fin 3 → Nat) a + S16x16x2048.size a ≤ S16x64x2048.size a
  inb_S16x64_S16x16_0_48 : ∀ a, (![0, 48] : Fin 2 → Nat) a + S16x16.size a ≤ S16x64.size a
  inb_S16x64_S16x64_0_0 : ∀ a, (![0, 0] : Fin 2 → Nat) a + S16x64.size a ≤ S16x64.size a
  h_S16x64 : 0 < S16x64.numel
  reduces_S16x64_S16 : S16x64.Reduces [1] S16
  shapeCasts_S16_S16x1 : S16.ShapeCasts S16x1
  broadcasts_S16x1_S16x64 : S16x1.Broadcasts S16x64
  slices_S16x64_o0_0_S16x16 : S16x64.Slices ![0, 0] S16x16
  shapeCasts_S16x16_S16x16x1 : S16x16.ShapeCasts S16x16x1
  broadcasts_S16x16x1_S16x16x2048 : S16x16x1.Broadcasts S16x16x2048
  reduces_S16x16x2048_S16x2048 : S16x16x2048.Reduces [1] S16x2048
  slices_S16x64_o0_16_S16x16 : S16x64.Slices ![0, 16] S16x16
  slices_S16x64_o0_32_S16x16 : S16x64.Slices ![0, 32] S16x16
  slices_S16x64_o0_48_S16x16 : S16x64.Slices ![0, 48] S16x16
  inb_S16x2048_S16x2048_0_0 : ∀ a, (![0, 0] : Fin 2 → Nat) a + S16x2048.size a ≤ S16x2048.size a
  h_S16x2048 : 0 < S16x2048.numel
  shapeCasts_S1024x64_S1024x64x1 : S1024x64.ShapeCasts S1024x64x1
  dot_S16x1024_S1024x512_S16x512_1_0_0_1_n_n_wf : DotDims.WF S16x1024 S1024x512 S16x512 [1] [0] [0] [1] [] []
  dot_S256x2048_S2048x512_S256x512_1_0_0_1_n_n_wf : DotDims.WF S256x2048 S2048x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x1024.size a ≤ S1024x1024.size a
  hwx0_0 : ∀ i : grid0.Coords, EltTy.bits .f32 = 32 ∨ (Rect.block (s := S1024x1024) S16x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x64x2048.size a ≤ S1024x64x2048.size a
  hwx0_1 : ∀ i : grid0.Coords, EltTy.bits .f32 = 32 ∨ (Rect.block (s := S1024x64x2048) S16x64x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x512.size a
  hwx0_2 : ∀ i : grid0.Coords, EltTy.bits .bf16 = 32 ∨ (Rect.block (s := S1024x512) S1024x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S2048x512.size a
  hwx0_4 : ∀ i : grid0.Coords, EltTy.bits .bf16 = 32 ∨ (Rect.block (s := S2048x512) S2048x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S16x2048.size a ≤ S1024x2048.size a
  hwx0_8 : ∀ i : grid0.Coords, EltTy.bits .f32 = 32 ∨ (Rect.block (s := S1024x2048) S16x2048.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S16x64.size a ≤ S1024x64.size a
  hwx0_9 : ∀ i : grid0.Coords, EltTy.bits .f32 = 32 ∨ (Rect.block (s := S1024x64) S16x64.size (cc0_transform_9 i) (hinb0_9 i)).WholeWords (EltTy.packing .f32)

variable [Facts₀]

def dot_S16x1024_S1024x512_S16x512_1_0_0_1_n_n : DotDims S16x1024 S1024x512 S16x512 where
  lhsContracting := [1]
  rhsContracting := [0]
  lhsNonContracting := [0]
  rhsNonContracting := [1]
  lhsBatch := []
  rhsBatch := []
  wf := dot_S16x1024_S1024x512_S16x512_1_0_0_1_n_n_wf
def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf

abbrev win0_0 : Pipeline.Window sig grid0 :=
  Pipeline.Window.ofSpec (Memref.whole main_arg0) S16x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x64x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S2048x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6_0) S16x2048.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6_1) S16x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S1024x1024 : Shape := ⟨2, ![1024, 1024]⟩
abbrev S1024x64x2048 : Shape := ⟨3, ![1024, 64, 2048]⟩
abbrev S1024x512 : Shape := ⟨2, ![1024, 512]⟩
abbrev S512 : Shape := ⟨1, ![512]⟩
abbrev S2048x512 : Shape := ⟨2, ![2048, 512]⟩
abbrev S512x1 : Shape := ⟨2, ![512, 1]⟩
abbrev S1 : Shape := ⟨1, ![1]⟩
abbrev S1x512 : Shape := ⟨2, ![1, 512]⟩
abbrev S1024x64x512 : Shape := ⟨3, ![1024, 64, 512]⟩
abbrev S1x1x512 : Shape := ⟨3, ![1, 1, 512]⟩
abbrev S1024x1x512 : Shape := ⟨3, ![1024, 1, 512]⟩
abbrev S1024x64x1 : Shape := ⟨3, ![1024, 64, 1]⟩
abbrev S1x1x1 : Shape := ⟨3, ![1, 1, 1]⟩
abbrev S_ : Shape := ⟨0, ![]⟩
abbrev S1024x1 : Shape := ⟨2, ![1024, 1]⟩
abbrev S1024x1x1 : Shape := ⟨3, ![1024, 1, 1]⟩
abbrev S1024x2048 : Shape := ⟨2, ![1024, 2048]⟩

abbrev nBuf : Space → Nat
  | .hbm => 42
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x64x2048, .f32⟩
  | .hbm, ⟨2, _⟩ => ⟨S1024x512, .f32⟩
  | .hbm, ⟨3, _⟩ => ⟨S512, .f32⟩
  | .hbm, ⟨4, _⟩ => ⟨S2048x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S1024x512, .f32⟩
  | .hbm, ⟨9, _⟩ => ⟨S1x512, .f32⟩
  | .hbm, ⟨10, _⟩ => ⟨S1024x512, .f32⟩
  | .hbm, ⟨11, _⟩ => ⟨S1024x512, .f32⟩
  | .hbm, ⟨12, _⟩ => ⟨S1024x64x512, .f32⟩
  | .hbm, ⟨13, _⟩ => ⟨S1x1x512, .f32⟩
  | .hbm, ⟨14, _⟩ => ⟨S1024x64x512, .f32⟩
  | .hbm, ⟨15, _⟩ => ⟨S1024x64x512, .f32⟩
  | .hbm, ⟨16, _⟩ => ⟨S1024x1x512, .f32⟩
  | .hbm, ⟨17, _⟩ => ⟨S1024x64x512, .f32⟩
  | .hbm, ⟨18, _⟩ => ⟨S1024x64x512, .f32⟩
  | .hbm, ⟨19, _⟩ => ⟨S1024x64x512, .f32⟩
  | .hbm, ⟨20, _⟩ => ⟨S1024x64x1, .f32⟩
  | .hbm, ⟨21, _⟩ => ⟨S1x1x1, .f32⟩
  | .hbm, ⟨22, _⟩ => ⟨S1024x64x1, .f32⟩
  | .hbm, ⟨23, _⟩ => ⟨S1024x64x1, .f32⟩
  | .hbm, ⟨24, _⟩ => ⟨S_, .f32⟩
  | .hbm, ⟨25, _⟩ => ⟨S1024x1, .f32⟩
  | .hbm, ⟨26, _⟩ => ⟨S_, .f32⟩
  | .hbm, ⟨27, _⟩ => ⟨S1024x1, .f32⟩
  | .hbm, ⟨28, _⟩ => ⟨S1024x1, .f32⟩
  | .hbm, ⟨29, _⟩ => ⟨S1024x1x1, .f32⟩
  | .hbm, ⟨30, _⟩ => ⟨S1024x64x1, .f32⟩
  | .hbm, ⟨31, _⟩ => ⟨S1024x64x1, .f32⟩
  | .hbm, ⟨32, _⟩ => ⟨S1024x64x1, .f32⟩
  | .hbm, ⟨33, _⟩ => ⟨S_, .f32⟩
  | .hbm, ⟨34, _⟩ => ⟨S1024x1, .f32⟩
  | .hbm, ⟨35, _⟩ => ⟨S1024x1x1, .f32⟩
  | .hbm, ⟨36, _⟩ => ⟨S1024x64x1, .f32⟩
  | .hbm, ⟨37, _⟩ => ⟨S1024x64x1, .f32⟩
  | .hbm, ⟨38, _⟩ => ⟨S1024x64x2048, .f32⟩
  | .hbm, ⟨39, _⟩ => ⟨S1024x64x2048, .f32⟩
  | .hbm, ⟨40, _⟩ => ⟨S_, .f32⟩
  | .hbm, ⟨41, _⟩ => ⟨S1024x2048, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  bcast_S512_S1x1x512_2 : S512.BroadcastsInDim S1x1x512 (![2] : Fin 1 → Fin S1x1x512.rank)
  bcast_S1x1x512_S1024x64x512_0_1_2 : S1x1x512.BroadcastsInDim S1024x64x512 (![0, 1, 2] : Fin 3 → Fin S1024x64x512.rank)
  bcast_S1024x512_S1024x1x512_0_2 : S1024x512.BroadcastsInDim S1024x1x512 (![0, 2] : Fin 2 → Fin S1024x1x512.rank)
  bcast_S1024x1x512_S1024x64x512_0_1_2 : S1024x1x512.BroadcastsInDim S1024x64x512 (![0, 1, 2] : Fin 3 → Fin S1024x64x512.rank)
  bcast_S1_S1x1x1_2 : S1.BroadcastsInDim S1x1x1 (![2] : Fin 1 → Fin S1x1x1.rank)
  bcast_S1x1x1_S1024x64x1_0_1_2 : S1x1x1.BroadcastsInDim S1024x64x1 (![0, 1, 2] : Fin 3 → Fin S1024x64x1.rank)
  reducesTo_S1024x64x1_S1024x1_d1 : S1024x64x1.ReducesTo [1] S1024x1
  h_S_ : 0 < S_.numel
  bcast_S_S1024x1 : S_.BroadcastsInDim S1024x1 (![] : Fin 0 → Fin S1024x1.rank)
  bcast_S1024x1_S1024x1x1_0_2 : S1024x1.BroadcastsInDim S1024x1x1 (![0, 2] : Fin 2 → Fin S1024x1x1.rank)
  bcast_S1024x1x1_S1024x64x1_0_1_2 : S1024x1x1.BroadcastsInDim S1024x64x1 (![0, 1, 2] : Fin 3 → Fin S1024x64x1.rank)
  bcast_S1024x64x1_S1024x64x2048_0_1_2 : S1024x64x1.BroadcastsInDim S1024x64x2048 (![0, 1, 2] : Fin 3 → Fin S1024x64x2048.rank)
  reducesTo_S1024x64x2048_S1024x2048_d1 : S1024x64x2048.ReducesTo [1] S1024x2048
  dot_S1024x1024_S1024x512_S1024x512_1_0_0_1_n_n_wf : DotDims.WF S1024x1024 S1024x512 S1024x512 [1] [0] [0] [1] [] []
  dot_S1024x64x2048_S2048x512_S1024x64x512_2_0_01_1_n_n_wf : DotDims.WF S1024x64x2048 S2048x512 S1024x64x512 [2] [0] [0, 1] [1] [] []
  dot_S1024x64x512_S512x1_S1024x64x1_2_0_01_1_n_n_wf : DotDims.WF S1024x64x512 S512x1 S1024x64x1 [2] [0] [0, 1] [1] [] []

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x64x2048_S2048x512_S1024x64x512_2_0_01_1_n_n : DotDims S1024x64x2048 S2048x512 S1024x64x512 where
  lhsContracting := [2]
  rhsContracting := [0]
  lhsNonContracting := [0, 1]
  rhsNonContracting := [1]
  lhsBatch := []
  rhsBatch := []
  wf := dot_S1024x64x2048_S2048x512_S1024x64x512_2_0_01_1_n_n_wf
def dot_S1024x64x512_S512x1_S1024x64x1_2_0_01_1_n_n : DotDims S1024x64x512 S512x1 S1024x64x1 where
  lhsContracting := [2]
  rhsContracting := [0]
  lhsNonContracting := [0, 1]
  rhsNonContracting := [1]
  lhsBatch := []
  rhsBatch := []
  wf := dot_S1024x64x512_S512x1_S1024x64x1_2_0_01_1_n_n_wf

class Facts : Prop extends Facts₀ where

variable [Facts]
-- ==== Proof.RowAttention.lean ====
/-
  Additive attention of one query row over a sequence of hidden rows, on the extended reals.

  A query row `q` is projected to `w1 a = (∑ j, q j · W1 j a) + b1 a`; hidden row `t` is projected to
  `w2 t a = (∑ f, h t f · W2 f a) + b2 a`; the score of row `t` is `(∑ a, tanh (w1 a + w2 t a) · V a) + bV`. The
  attention weights are the softmax of the scores along the sequence, taken the numerically careful way: with
  `M` the largest score (the fold of `max` from −∞), `e t = exp (score t − M)` and `weight t = e t / ∑ k, e k`. The
  context vector is the weighted sum of the hidden rows, `context f = ∑ t, weight t · h t f`.

  Both programs compute exactly these expressions, index by index; they differ only in how they lay the arrays out and in
  that one of them walks the sequence in four chunks of sixteen positions. The one law this needs is that a sum over
  sixty-four positions is the sum of its four chunk sums (`sum_chunks`): additions regrouped, which holds in any
  commutative monoid and so on the extended reals with no finiteness assumption.
-/
import Idealize.ShloMosaic.PureOps.Ideal.Laws
import Idealize.ShloMosaic.Lib.ValueIdx

noncomputable section

open scoped BigOperators

namespace Cert.RowAttention

open Idealize.ShloMosaic Idealize.ShloMosaic.ValueIdx

variable {G T D A : ℕ}

/-- The query row projected onto attention unit `a`. -/
def queryProj (q : Fin G → EReal) (W1 : Fin G → Fin A → EReal) (b1 : Fin A → EReal) (a : Fin A) : EReal :=
  (∑ j : Fin G, q j * W1 j a) + b1 a

/-- One hidden row projected onto attention unit `a`. -/
def hiddenProj (h : Fin D → EReal) (W2 : Fin D → Fin A → EReal) (b2 : Fin A → EReal) (a : Fin A) : EReal :=
  (∑ f : Fin D, h f * W2 f a) + b2 a

/-- The score of one hidden row against the query: its projections added, squashed, and scored by `V`. -/
def score (w1 w2 V : Fin A → EReal) (bV : EReal) : EReal :=
  (∑ a : Fin A, Ideal.tanh (w1 a + w2 a) * V a) + bV

/-- The scores of all hidden rows `h t` against the query row `q`. -/
def scores (q : Fin G → EReal) (h : Fin T → Fin D → EReal) (W1 : Fin G → Fin A → EReal) (b1 : Fin A → EReal)
    (W2 : Fin D → Fin A → EReal) (b2 V : Fin A → EReal) (bV : EReal) (t : Fin T) : EReal :=
  score (queryProj q W1 b1) (hiddenProj (h t) W2 b2) V bV

/-- The value −∞ both programs start their running maximum from. -/
def negInf : EReal := Ideal.ofBits .f32 0xFF800000#32

/-- The largest score: the fold of `max` from −∞ along the sequence. -/
def rowMax (L : Fin T → EReal) : EReal := (Finset.univ : Finset (Fin T)).fold max negInf L

/-- A score shifted by the largest one and exponentiated. -/
def shifted (L : Fin T → EReal) (t : Fin T) : EReal := Ideal.exp (L t - rowMax L)

/-- The softmax weight of position `t`. -/
def weights (L : Fin T → EReal) (t : Fin T) : EReal := Ideal.div (shifted L t) (∑ k : Fin T, shifted L k)

/-- The weighted sum of the hidden rows, at feature `f`. -/
def context (w : Fin T → EReal) (h : Fin T → Fin D → EReal) (f : Fin D) : EReal := ∑ t : Fin T, w t * h t f

/-- Position `u` of chunk `c` of a sequence of 64 walked in four chunks of 16. -/
def chunkPos (c : Fin 4) (u : Fin 16) : Fin 64 := ⟨16 * c.val + u.val, by have := c.isLt; have := u.isLt; omega⟩

/-- A sum over the 64 positions is the sum of the four chunk sums, taken in order from the left. -/
theorem sum_chunks {M : Type*} [AddCommMonoid M] (g : Fin 64 → M) :
    ∑ t : Fin 64, g t
      = (((∑ u : Fin 16, g (chunkPos 0 u)) + ∑ u : Fin 16, g (chunkPos 1 u)) + ∑ u : Fin 16, g (chunkPos 2 u))
          + ∑ u : Fin 16, g (chunkPos 3 u) := by
  have e1 := Fin.sum_univ_add (a := 48) (b := 16) (fun i : Fin (48 + 16) => g i)
  have e2 := Fin.sum_univ_add (a := 32) (b := 16) (fun i : Fin (32 + 16) => g (Fin.castAdd 16 i))
  have e3 := Fin.sum_univ_add (a := 16) (b := 16) (fun i : Fin (16 + 16) => g (Fin.castAdd 16 (Fin.castAdd 16 i)))
  refine e1.trans ?_
  rw [e2, e3]
  refine congrArg₂ (· + ·) (congrArg₂ (· + ·) (congrArg₂ (· + ·) ?_ ?_) ?_) ?_ <;>
    exact Finset.sum_congr rfl fun u _ => congrArg g (Fin.ext (by simp [chunkPos] <;> omega))

/-- The running maximum is at least its starting value, so taking `max` with the starting value once more changes
    nothing. -/
theorem max_negInf_rowMax (L : Fin T → EReal) : max negInf (rowMax L) = rowMax L :=
  max_eq_right ((Finset.le_fold_max _).mpr (Or.inl le_rfl))

/-! ## The two results as functions of the eight argument arrays -/

/-- A matrix as a function of its row and column. -/
def rows2 {n0 n1 : ℕ} (x : (⟨2, ![n0, n1]⟩ : Shape).Idx → EReal) (i : Fin n0) (j : Fin n1) : EReal := x (ix2 i j)

/-- A rank-3 array as a function of its three coordinates: slab, row, column. -/
def rows3 {n0 n1 n2 : ℕ} (x : (⟨3, ![n0, n1, n2]⟩ : Shape).Idx → EReal) (i : Fin n0) (j : Fin n1) (k : Fin n2) : EReal :=
  x (ix3 i j k)

/-- A vector as a function of its position. -/
def entries {n : ℕ} (x : (⟨1, ![n]⟩ : Shape).Idx → EReal) (i : Fin n) : EReal := x (ix1 i)

section Arrays

variable (Q : (⟨2, ![1024, 1024]⟩ : Shape).Idx → EReal) (H : (⟨3, ![1024, 64, 2048]⟩ : Shape).Idx → EReal)
  (W1 : (⟨2, ![1024, 512]⟩ : Shape).Idx → EReal) (B1 : (⟨1, ![512]⟩ : Shape).Idx → EReal)
  (W2 : (⟨2, ![2048, 512]⟩ : Shape).Idx → EReal) (B2 : (⟨1, ![512]⟩ : Shape).Idx → EReal)
  (V : (⟨2, ![512, 1]⟩ : Shape).Idx → EReal) (BV : (⟨1, ![1]⟩ : Shape).Idx → EReal)

/-- The scores of batch entry `b`: its query row against its 64 hidden rows. -/
def scoresOf (b : Fin 1024) : Fin 64 → EReal :=
  scores (rows2 Q b) (rows3 H b) (rows2 W1) (entries B1) (rows2 W2) (entries B2) (fun a => V (ix2 a (0 : Fin 1)))
    (BV (ix1 (0 : Fin 1)))

/-- The attention weights of batch entry `b`. -/
def attnOf (b : Fin 1024) : Fin 64 → EReal := weights (scoresOf Q H W1 B1 W2 B2 V BV b)

/-- The context vector of batch entry `b`. -/
def ctxOf (b : Fin 1024) : Fin 2048 → EReal := context (attnOf Q H W1 B1 W2 B2 V BV b) (rows3 H b)

/-- The first result, `[1024, 2048]`: the context vectors. -/
def ctxResult : (⟨2, ![1024, 2048]⟩ : Shape).Idx → EReal := fun i => ctxOf Q H W1 B1 W2 B2 V BV (i 0) (i 1)

/-- The second result, `[1024, 64, 1]`: the attention weights, with a trailing unit axis. -/
def attnResult : (⟨3, ![1024, 64, 1]⟩ : Shape).Idx → EReal := fun i => attnOf Q H W1 B1 W2 B2 V BV (i 0) (i 1)

end Arrays

end Cert.RowAttention

end
-- ==== Proof.LibRank3Layout.lean ====
/-
  Rank-3 arrays read at coordinates, for any extents and element type: what a kernel that keeps a batch of matrices
  `[a, b, c]` in one vector meets when it folds the two leading axes together for a matrix product, adds or drops a unit
  axis around a reduction that keeps its dimension, spreads a per-row or per-entry value back over the block, and reduces
  over the middle or the last axis.
  • FOLDED ROWS: `[a, b, c]` viewed as `[n, c]` with `n = a·b` and back — row `p·b + m` of the matrix is row `m` of slab `p`
    (`shapeCast_abc_nc_apply`, `shapeCast_nc_abc_apply`).
  • UNIT AXES ADDED: `[a, c] → [a, 1, c]` and `[a, b] → [a, b, 1]` (`shapeCast_ac_a1c_apply`, `shapeCast_ab_ab1_apply`).
  • SPREADS: `[a, 1, c] → [a, b, c]`, `[1, 1, c] → [a, b, c]`, `[a, b, 1] → [a, b, c]` read the operand with `0` on its unit axes
    (`broadcastTo_a1c_abc_apply`, `broadcastTo_11c_abc_apply`, `broadcastTo_ab1_abc_apply`).
  • REDUCTIONS over the extended reals: a sum over the last axis and over the middle axis as a `Fin`-indexed sum, a
    maximum over the middle axis as the fold of `max` from the starting value, on a vector unit
    (`multiReduction_add_last`, `multiReduction_add_mid`, `multiReduction_max_mid`) and for the host's
    `stablehlo.reduce` with a maximum body (`hostReduce_max_mid`).
-/
import Idealize.ShloMosaic.Lib.Pipeline.Value
import Idealize.ShloMosaic.Lib.ValueIdx
import Idealize.ShloMosaic.PureOps.Ideal.Laws

noncomputable section

open scoped BigOperators

namespace Cert.LibRank3

open Idealize.ShloMosaic Idealize.ShloMosaic.ValueIdx

variable {α : Type}

/-! ## The two leading axes folded into one, and unfolded -/

/-- An `[a, b, c]` array viewed as `[n, c]` (`n = a·b`) reads, at row `r = p·b + m` and column `f`, the operand at `(p, m, f)`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (m : Fin b) (f : Fin c) (r : Fin n)
    (hr : r.val = p.val * b + m.val) :
    shapeCast ⟨2, ![n, c]⟩ x h (ix2 r f) = x (ix3 p m f) :=
  shapeCast_apply x h _ _ (by
    rw [Shape.rowMajor_val_three, Shape.rowMajor_val_two]
    show (p.val * b + m.val) * c + f.val = r.val * c + f.val
    rw [hr])

/-- An `[n, c]` matrix (`n = a·b`) viewed as `[a, b, c]` reads, at `(p, m, f)`, the operand at row `r = p·b + m`, column `f`. -/
theorem shapeCast_nc_abc_apply {a b c n : ℕ} (x : (⟨2, ![n, c]⟩ : Shape).Idx → α)
    (h : (⟨2, ![n, c]⟩ : Shape).ShapeCasts ⟨3, ![a, b, c]⟩) (p : Fin a) (m : Fin b) (f : Fin c) (r : Fin n)
    (hr : r.val = p.val * b + m.val) :
    shapeCast ⟨3, ![a, b, c]⟩ x h (ix3 p m f) = x (ix2 r f) :=
  shapeCast_apply x h _ _ (by
    rw [Shape.rowMajor_val_three, Shape.rowMajor_val_two]
    show r.val * c + f.val = (p.val * b + m.val) * c + f.val
    rw [hr])

/-! ## A unit axis added in the middle or at the end -/

/-- An `[a, c]` matrix cast to `[a, 1, c]` reads, at `(p, u, f)`, the operand at `(p, f)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (f : Fin c) :
    shapeCast ⟨3, ![a, 1, c]⟩ x h (ix3 p u f) = x (ix2 p f) :=
  shapeCast_apply x h _ _ (by
    have hu : u.val = 0 := by omega
    rw [Shape.rowMajor_val_three, Shape.rowMajor_val_two]
    show p.val * c + f.val = (p.val * 1 + u.val) * c + f.val
    rw [hu, Nat.mul_one, Nat.add_zero])

/-- An `[a, b]` matrix cast to `[a, b, 1]` reads, at `(p, m, u)`, the operand at `(p, m)`. -/
theorem shapeCast_ab_ab1_apply {a b : ℕ} (x : (⟨2, ![a, b]⟩ : Shape).Idx → α)
    (h : (⟨2, ![a, b]⟩ : Shape).ShapeCasts ⟨3, ![a, b, 1]⟩) (p : Fin a) (m : Fin b) (u : Fin 1) :
    shapeCast ⟨3, ![a, b, 1]⟩ x h (ix3 p m u) = x (ix2 p m) :=
  shapeCast_apply x h _ _ (by
    have hu : u.val = 0 := by omega
    rw [Shape.rowMajor_val_three, Shape.rowMajor_val_two]
    show p.val * b + m.val = (p.val * b + m.val) * 1 + u.val
    rw [hu, Nat.mul_one, Nat.add_zero])

/-! ## A value spread over the block -/

/-- An `[a, 1, c]` array spread to `[a, b, c]` reads, at `(p, m, f)`, the operand at `(p, 0, f)`. -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (m : Fin b) (f : Fin c) :
    broadcastTo ⟨3, ![a, b, c]⟩ x h (ix3 p m f) = x (ix3 p (0 : Fin 1) f) := by
  refine broadcastTo_apply x h (ix3 p m f) (ix3 p (0 : Fin 1) f) fun ax => ?_
  match ax with
  | ⟨0, _⟩ =>
    show p.val = if a = 1 then 0 else p.val
    split
    · have := p.isLt; omega
    · rfl
  | ⟨1, _⟩ => rfl
  | ⟨2, _⟩ =>
    show f.val = if c = 1 then 0 else f.val
    split
    · have := f.isLt; omega
    · rfl

/-- A `[1, 1, c]` array spread to `[a, b, c]` reads, at `(p, m, f)`, the operand's one row at `f`. -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (m : Fin b) (f : Fin c) :
    broadcastTo ⟨3, ![a, b, c]⟩ x h (ix3 p m f) = x (ix3 (0 : Fin 1) (0 : Fin 1) f) := by
  refine broadcastTo_apply x h (ix3 p m f) (ix3 (0 : Fin 1) (0 : Fin 1) f) fun ax => ?_
  match ax with
  | ⟨0, _⟩ => rfl
  | ⟨1, _⟩ => rfl
  | ⟨2, _⟩ =>
    show f.val = if c = 1 then 0 else f.val
    split
    · have := f.isLt; omega
    · rfl

/-- An `[a, b, 1]` array spread to `[a, b, c]` reads, at `(p, m, f)`, the operand at `(p, m, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (p : Fin a) (m : Fin b) (f : Fin c) :
    broadcastTo ⟨3, ![a, b, c]⟩ x h (ix3 p m f) = x (ix3 p m (0 : Fin 1)) := by
  refine broadcastTo_apply x h (ix3 p m f) (ix3 p m (0 : Fin 1)) fun ax => ?_
  match ax with
  | ⟨0, _⟩ =>
    show p.val = if a = 1 then 0 else p.val
    split
    · have := p.isLt; omega
    · rfl
  | ⟨1, _⟩ =>
    show m.val = if b = 1 then 0 else m.val
    split
    · have := m.isLt; omega
    · rfl
  | ⟨2, _⟩ => rfl

/-! ## Reductions of a rank-3 vector over one axis, on the extended reals -/

section Reductions
variable {φ : FTy}

/-- A sum over the LAST axis of an `[a, b, c]` vector at `(p, m)` is the sum over `k` of the source at `(p, m, k)`. -/
theorem multiReduction_add_last {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (m : Fin b) :
    multiReduction .add [2] ⟨2, ![a, b]⟩ src acc h hφ hacc (ix2 p m) = ∑ k : Fin c, src (ix3 p m k) :=
  (Ideal.multiReduction_add_single src acc h hφ hacc (ix2 p m)).trans
    (Finset.sum_congr rfl fun k _ => congrArg src (funext fun ax => Fin.ext (by
      match ax with
      | ⟨0, _⟩ => rfl
      | ⟨1, _⟩ => rfl
      | ⟨2, _⟩ => rfl)))

/-- A sum over the MIDDLE axis of an `[a, b, c]` vector at `(p, d)` is the sum over `k` of the source at `(p, k, d)`. -/
theorem multiReduction_add_mid {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (p : Fin a) (d : Fin c) :
    multiReduction .add [1] ⟨2, ![a, c]⟩ src acc h hφ hacc (ix2 p d) = ∑ k : Fin b, src (ix3 p k d) :=
  (Ideal.multiReduction_add_single src acc h hφ hacc (ix2 p d)).trans
    (Finset.sum_congr rfl fun k _ => congrArg src (funext fun ax => Fin.ext (by
      match ax with
      | ⟨0, _⟩ => rfl
      | ⟨1, _⟩ => rfl
      | ⟨2, _⟩ => rfl)))

/-- A maximum over the MIDDLE axis of an `[a, b, c]` vector at `(p, d)` is the fold of `max`, from the starting word's
    value, over `k` of the source at `(p, k, d)`. -/
theorem multiReduction_max_mid {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.maximumf.neutral φ hφ)
    (p : Fin a) (d : Fin c) :
    multiReduction .maximumf [1] ⟨2, ![a, c]⟩ src acc h hφ hacc (ix2 p d)
      = (Finset.univ : Finset (Fin b)).fold max (Ideal.ofBits φ acc) (fun k => src (ix3 p k d)) :=
  (Ideal.multiReduction_maximumf_single src acc h hφ hacc (ix2 p d)).trans
    (Finset.fold_congr fun k _ => congrArg src (funext fun ax => Fin.ext (by
      match ax with
      | ⟨0, _⟩ => rfl
      | ⟨1, _⟩ => rfl
      | ⟨2, _⟩ => rfl)))

/-- The host's `stablehlo.reduce` with a maximum body over the MIDDLE axis of an `[a, b, c]` array at `(p, d)`: the fold
    of `max`, from the initial value, over `k` of the operand at `(p, k, d)`. -/
theorem hostReduce_max_mid {a b c : ℕ} {u : Shape} (x : FVec Ideal ⟨3, ![a, b, c]⟩ φ) (init : u.Idx → Ideal φ)
    (h' : (⟨3, ![a, b, c]⟩ : Shape).ReducesTo [1] ⟨2, ![a, c]⟩) (h : (⟨3, ![a, b, c]⟩ : Shape).Reduces [1] ⟨2, ![a, c]⟩)
    (hu : 0 < u.numel) (p : Fin a) (d : Fin c) :
    Host.reduce (FloatOps.maximumf (F := Ideal) (φ := φ)) x init h' hu (ix2 p d)
      = (Finset.univ : Finset (Fin b)).fold max (init (Shape.Idx.first hu)) (fun k => x (ix3 p k d)) :=
  (Host.reduce_eq_fold_single (FloatOps.maximumf (F := Ideal) (φ := φ)) x init h' h hu (ix2 p d)).trans
    (Finset.fold_congr fun k _ => congrArg x (funext fun ax => Fin.ext (by
      match ax with
      | ⟨0, _⟩ => rfl
      | ⟨1, _⟩ => rfl
      | ⟨2, _⟩ => rfl)))

end Reductions

end Cert.LibRank3

end
-- ==== Proof.RefSide.lean ====
/-
  The reference side: the host program's two results are the context vectors and the attention weights of the
  specification, index by index.

  The program is read one operation at a time. Batch entry `b`'s projected query is `queryProj` of row `b` of the
  query matrix; its projected hidden row `t` is `hiddenProj` of row `t` of slab `b`; the contraction with `V` and the
  added bias give the score. The maximum over the sequence is the host's reduction with a `max` body over the middle
  axis of the `[1024, 64, 1]` scores — the fold of `max` from −∞ — followed by one more `max` with −∞, which changes
  nothing. Each of the two sums (the softmax denominator and the context) starts from the zero word, which is the real 0.
-/
import proofs.«110587_j52175262712194_2_alg».proof.Defs
import proofs.«110587_j52175262712194_2_alg».proof.Proof.Gen.ReferenceIdeal.Run
import proofs.«110587_j52175262712194_2_alg».proof.Proof.Gen.ReferenceIdeal.Read
import proofs.«110587_j52175262712194_2_alg».proof.Proof.RowAttention
import proofs.«110587_j52175262712194_2_alg».proof.Proof.LibRank3Layout

noncomputable section

open scoped BigOperators

namespace Cert.ReferenceIdeal.RefValue

open Cert.ReferenceIdeal Cert.ReferenceIdeal.Gen Cert.ReferenceIdeal.Read Idealize.ShloMosaic Idealize.ShloMosaic.ValueIdx
open Cert.RowAttention

/-- Two indices of a literal shape with the same coordinates are equal: decided axis by axis (ranks 1, 2, 3). -/
local macro "idx_eq1" : tactic => `(tactic| (funext d; apply Fin.ext; match d with | ⟨0, _⟩ => rfl))
local macro "idx_eq2" : tactic => `(tactic| (funext d; apply Fin.ext; match d with | ⟨0, _⟩ => rfl | ⟨1, _⟩ => rfl))
local macro "idx_eq3" : tactic =>
  `(tactic| (funext d; apply Fin.ext; match d with | ⟨0, _⟩ => rfl | ⟨1, _⟩ => rfl | ⟨2, _⟩ => rfl))

variable (x0 : (⟨S1024x1024, .f32⟩ : BufTy).Contents (Elt Ideal)) (x1 : (⟨S1024x64x2048, .f32⟩ : BufTy).Contents (Elt Ideal)) (x2 : (⟨S1024x512, .f32⟩ : BufTy).Contents (Elt Ideal)) (x3 : (⟨S512, .f32⟩ : BufTy).Contents (Elt Ideal)) (x4 : (⟨S2048x512, .f32⟩ : BufTy).Contents (Elt Ideal)) (x5 : (⟨S512, .f32⟩ : BufTy).Contents (Elt Ideal)) (x6 : (⟨S512x1, .f32⟩ : BufTy).Contents (Elt Ideal)) (x7 : (⟨S1, .f32⟩ : BufTy).Contents (Elt Ideal))

/-- The projected query of batch entry `b`, as the program spreads it over the sequence. -/
theorem query_stage (b : Fin 1024) (t : Fin 64) (a : Fin 512) :
    val_main_v9 (F := Ideal) x0 x2 x3 (ix3 b t a) = queryProj (rows2 x0 b) (rows2 x2) (entries x3) a := by
  rw [val_main_v9_apply, val_main_v8_apply, val_main_v3_apply, val_main_v0_apply, val_main_v2_apply, val_main_v1_apply]
  unfold queryProj rows2 entries
  rw [Ideal.addf_def]
  refine congrArg₂ (· + ·) (Finset.sum_congr rfl fun k _ => congrArg₂ (· * ·) (congrArg x0 ?_) (congrArg x2 ?_)) (congrArg x3 ?_)
  · idx_eq2
  · idx_eq2
  · idx_eq1

/-- The projected hidden row `t` of batch entry `b`. -/
theorem hidden_stage (b : Fin 1024) (t : Fin 64) (a : Fin 512) :
    val_main_v7 (F := Ideal) x1 x4 x5 (ix3 b t a) = hiddenProj (rows3 x1 b t) (rows2 x4) (entries x5) a := by
  rw [val_main_v7_apply, val_main_v4_apply, val_main_v6_apply, val_main_v5_apply]
  unfold hiddenProj rows2 rows3 entries
  rw [Ideal.addf_def]
  refine congrArg₂ (· + ·) (Finset.sum_congr rfl fun k _ => congrArg₂ (· * ·) (congrArg x1 ?_) (congrArg x4 ?_)) (congrArg x5 ?_)
  · idx_eq3
  · idx_eq2
  · idx_eq1

/-- The score of hidden row `t` of batch entry `b`. -/
theorem score_stage (b : Fin 1024) (t : Fin 64) (u : Fin 1) :
    val_main_v15 (F := Ideal) x0 x1 x2 x3 x4 x5 x6 x7 (ix3 b t u) = scoresOf x0 x1 x2 x3 x4 x5 x6 x7 b t := by
  obtain rfl : u = 0 := Subsingleton.elim _ _
  rw [val_main_v15_apply, val_main_v12_apply, val_main_v14_apply, val_main_v13_apply]
  unfold scoresOf scores score
  rw [Ideal.addf_def]
  refine congrArg₂ (· + ·) (Finset.sum_congr rfl fun a _ => ?_) (congrArg x7 (by idx_eq1))
  rw [show lidx_main_v12 (ix3 b t (0 : Fin 1)) a = ix3 b t a from by idx_eq3,
    show ridx_main_v12 (ix3 b t (0 : Fin 1)) a = ix2 a (0 : Fin 1) from by idx_eq2,
    val_main_v11_apply, val_main_v10_apply, query_stage, hidden_stage, Ideal.hostUnary_tanh_def, Ideal.addf_def]

/-- The largest score of batch entry `b`: the host's maximum over the sequence axis, then `max` with −∞ once more. -/
theorem max_stage (b : Fin 1024) (u : Fin 1) :
    val_main_v18 (F := Ideal) x0 x1 x2 x3 x4 x5 x6 x7 (ix2 b u) = rowMax (scoresOf x0 x1 x2 x3 x4 x5 x6 x7 b) := by
  rw [val_main_v18_apply, val_main_v17_apply, val_main_cst_0_apply, Ideal.maximumf_def]
  have h16 : val_main_v16 (F := Ideal) x0 x1 x2 x3 x4 x5 x6 x7 (ix2 b u) = rowMax (scoresOf x0 x1 x2 x3 x4 x5 x6 x7 b) := by
    unfold val_main_v16
    rw [Cert.LibRank3.hostReduce_max_mid (val_main_v15 (F := Ideal) x0 x1 x2 x3 x4 x5 x6 x7) (val_main_cst (F := Ideal))
      reducesTo_S1024x64x1_S1024x1_d1 (by decide) h_S_ b u]
    unfold rowMax
    rw [val_main_cst_apply]
    exact Finset.fold_congr fun k _ => score_stage x0 x1 x2 x3 x4 x5 x6 x7 b k u
  rw [h16]
  exact max_negInf_rowMax _

/-- A score shifted by the largest and exponentiated. -/
theorem shifted_stage (b : Fin 1024) (t : Fin 64) (u : Fin 1) :
    val_main_v22 (F := Ideal) x0 x1 x2 x3 x4 x5 x6 x7 (ix3 b t u) = shifted (scoresOf x0 x1 x2 x3 x4 x5 x6 x7 b) t := by
  rw [val_main_v22_apply, val_main_v21_apply, val_main_v20_apply, val_main_v19_apply, score_stage,
    show idx_main_v19 (idx_main_v20 (ix3 b t u)) = ix2 b (0 : Fin 1) from by idx_eq2, max_stage,
    Ideal.hostUnary_exp_def, Ideal.subf_def]
  rfl

/-- The attention weight of position `t` of batch entry `b`. -/
theorem attn_stage (b : Fin 1024) (t : Fin 64) (u : Fin 1) :
    val_main_v26 (F := Ideal) x0 x1 x2 x3 x4 x5 x6 x7 (ix3 b t u) = attnOf x0 x1 x2 x3 x4 x5 x6 x7 b t := by
  rw [val_main_v26_apply, val_main_v25_apply, val_main_v24_apply, val_main_v23_apply, val_main_cst_1_apply, shifted_stage,
    Ideal.hostDivf_def, Ideal.ofBits_def, Ideal.ofBits_zero_f32, zero_add]
  unfold attnOf weights
  refine congrArg (Ideal.div _) (Finset.sum_congr rfl fun k _ => ?_)
  rw [show idx_main_v23 (idx_main_v24 (idx_main_v25 (ix3 b t u))) k = ix3 b k (0 : Fin 1) from by idx_eq3, shifted_stage]

/-- The context vector of batch entry `b` at feature `f`. -/
theorem ctx_stage (b : Fin 1024) (f : Fin 2048) :
    val_main_v29 (F := Ideal) x0 x1 x2 x3 x4 x5 x6 x7 (ix2 b f) = ctxOf x0 x1 x2 x3 x4 x5 x6 x7 b f := by
  rw [val_main_v29_apply, val_main_cst_2_apply, Ideal.ofBits_def, Ideal.ofBits_zero_f32, zero_add]
  unfold ctxOf context rows3
  refine Finset.sum_congr rfl fun k _ => ?_
  rw [val_main_v28_apply, val_main_v27_apply, Ideal.mulf_def,
    show idx_main_v29 (ix2 b f) k = ix3 b k f from by idx_eq3,
    show idx_main_v27 (ix3 b k f) = ix3 b k (0 : Fin 1) from by idx_eq3, attn_stage]

/-- The first result is the array of context vectors. -/
theorem ctx_eq : val_main_v29 (F := Ideal) x0 x1 x2 x3 x4 x5 x6 x7 = ctxResult x0 x1 x2 x3 x4 x5 x6 x7 := by
  funext i
  obtain ⟨b, f, rfl⟩ : ∃ (b : Fin 1024) (f : Fin 2048), i = ix2 b f := ⟨i 0, i 1, eq_ix2 i⟩
  exact ctx_stage x0 x1 x2 x3 x4 x5 x6 x7 b f

/-- The second result is the array of attention weights. -/
theorem attn_eq : val_main_v26 (F := Ideal) x0 x1 x2 x3 x4 x5 x6 x7 = attnResult x0 x1 x2 x3 x4 x5 x6 x7 := by
  funext i
  obtain ⟨b, t, u, rfl⟩ : ∃ (b : Fin 1024) (t : Fin 64) (u : Fin 1), i = ix3 b t u := ⟨i 0, i 1, i 2, eq_ix3 i⟩
  exact attn_stage x0 x1 x2 x3 x4 x5 x6 x7 b t u

end Cert.ReferenceIdeal.RefValue

end
-- ==== Proof.KernelPieces.lean ====
/-
  What one run of the kernel body leaves in its two output blocks, as pure terms of the eight input blocks.

  The body fills a `[16, 64]` scratch with the scores of the block's sixteen batch entries, sixteen sequence positions
  at a time: four stores into the column ranges 0–15, 16–31, 32–47, 48–63, each computed from the matching sixteen rows
  `hiddenChunk c` of every hidden slab of the block. It then reads the whole scratch back — the four stores tile it, so
  what it reads is the stores' payloads laid side by side (`scoreBlock`) — and from it computes the attention weights
  (stored whole into the second output block) and the context vectors (stored whole into the first output block, from
  the weights and the four hidden chunks again).
-/
import proofs.«110587_j52175262712194_2_alg».proof.Proof.Gen.KernelIdeal.Frame
import Idealize.ShloMosaic.Lib.Pipeline.Value
import Idealize.ShloMosaic.Lib.Tactic

set_option maxRecDepth 16384

noncomputable section

namespace Cert.KernelIdeal.Body

open Idealize.ShloMosaic Idealize.ShloMosaic.TcCoe Idealize.SL.Sem Cert.KernelIdeal Cert.KernelIdeal.Gen

variable {F : FTy → Type} [FloatOps F]

theorem zero2 : (![0, 0] : Fin 2 → Nat) = fun _ => 0 := funext fun a => by fin_cases a <;> rfl

/-- Sequence positions 0–15 of every hidden slab of the block. -/
abbrev hiddenChunk0 (x1 : Vec F S16x64x2048 .f32) : Vec F S16x16x2048 .f32 :=
  View.ld x1 (Rect.unit (s := S16x64x2048) ![0, 0, 0] S16x16x2048.size inb_S16x64x2048_S16x16x2048_0_0_0)
/-- Sequence positions 16–31. -/
abbrev hiddenChunk1 (x1 : Vec F S16x64x2048 .f32) : Vec F S16x16x2048 .f32 :=
  View.ld x1 (Rect.unit (s := S16x64x2048) ![0, 16, 0] S16x16x2048.size inb_S16x64x2048_S16x16x2048_0_16_0)
/-- Sequence positions 32–47. -/
abbrev hiddenChunk2 (x1 : Vec F S16x64x2048 .f32) : Vec F S16x16x2048 .f32 :=
  View.ld x1 (Rect.unit (s := S16x64x2048) ![0, 32, 0] S16x16x2048.size inb_S16x64x2048_S16x16x2048_0_32_0)
/-- Sequence positions 48–63. -/
abbrev hiddenChunk3 (x1 : Vec F S16x64x2048 .f32) : Vec F S16x16x2048 .f32 :=
  View.ld x1 (Rect.unit (s := S16x64x2048) ![0, 48, 0] S16x16x2048.size inb_S16x64x2048_S16x16x2048_0_48_0)

/-- The scores of the block as the scratch holds them once the four chunks are stored: the four payloads side by
    side, the last store first. -/
def scoreBlock (x0 : Vec F S16x1024 .f32) (x1 : Vec F S16x64x2048 .f32) (x2 : Vec F S1024x512 .bf16) (x3 : Vec F S1x512 .f32)
    (x4 : Vec F S2048x512 .bf16) (x5 : Vec F S1x512 .f32) (x6 : Vec F S1x512 .f32) (x7 : Vec F S1x1 .f32) : Vec F S16x64 .f32 :=
  View.canon
    [⟨Rect.unit (s := S16x64) ![0, 48] S16x16.size inb_S16x64_S16x16_0_48,
        k0_pay10 (k0_pay1 x0 x2 x3) (k0_pay2 x6) (k0_pay3 x7) (hiddenChunk3 x1) x4 x5⟩,
      ⟨Rect.unit (s := S16x64) ![0, 32] S16x16.size inb_S16x64_S16x16_0_32,
        k0_pay9 (k0_pay2 x6) (k0_pay3 x7) (k0_pay7 (hiddenChunk2 x1) x4 x5) (k0_pay8 (k0_pay1 x0 x2 x3))⟩,
      ⟨Rect.unit (s := S16x64) ![0, 16] S16x16.size inb_S16x64_S16x16_0_16,
        k0_pay6 (k0_pay1 x0 x2 x3) (k0_pay2 x6) (k0_pay3 x7) (hiddenChunk1 x1) x4 x5⟩,
      ⟨Rect.unit (s := S16x64) ![0, 0] S16x16.size inb_S16x64_S16x16_0_0,
        k0_pay5 (k0_pay4 x0 x2 x3 x6 x7 (hiddenChunk0 x1) x4 x5)⟩]

/-- The second output block: the attention weights computed from the score block. -/
theorem weights_block (c : Dev nD) (i : grid0.Coords) (arg1 : Memref sig .tc .vmem S16x1024 .f32) (harg1 : arg1.IsWhole) (arg2 : Memref sig .tc .vmem S16x64x2048 .f32) (harg2 : arg2.IsWhole) (arg3 : Memref sig .tc .vmem S1024x512 .bf16) (harg3 : arg3.IsWhole) (arg4 : Memref sig .tc .vmem S1x512 .f32) (harg4 : arg4.IsWhole) (arg5 : Memref sig .tc .vmem S2048x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S16x2048 .f32) (harg9 : arg9.IsWhole) (arg10 : Memref sig .tc .vmem S16x64 .f32) (harg10 : arg10.IsWhole) (arg11 : Memref sig .tc .vmem S16x64 .f32) (harg11 : arg11.IsWhole)
    (x0 : Vec F S16x1024 .f32) (x1 : Vec F S16x64x2048 .f32) (x2 : Vec F S1024x512 .bf16) (x3 : Vec F S1x512 .f32) (x4 : Vec F S2048x512 .bf16) (x5 : Vec F S1x512 .f32) (x6 : Vec F S1x512 .f32) (x7 : Vec F S1x1 .f32) :
    out0_A_9 c i arg1 harg1 arg2 harg2 arg3 harg3 arg4 harg4 arg5 harg5 arg6 harg6 arg7 harg7 arg8 harg8 arg9 harg9 arg10 harg10 arg11 harg11 x0 x1 x2 x3 x4 x5 x6 x7 = k0_pay12 (k0_pay11 (scoreBlock x0 x1 x2 x3 x4 x5 x6 x7)) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 x0 x1 x2 x3 x4 x5 x6 x7)]
  unfold kernelRun0_A
  dsimp only
  sl_unfold_words
  rw [View.canon_unit_zero zero2, View.readCov_eq_canon']
  simp only [View.readAt_eq_ld, harg1.read_unread, harg2.read_unread, harg3.read_unread, harg4.read_unread, harg5.read_unread,
    harg6.read_unread, harg7.read_unread, harg8.read_unread,
    View.ld_unit_zero (S := S16x1024) zero2, View.ld_unit_zero (S := S1024x512) zero2, View.ld_unit_zero (S := S1x512) zero2,
    View.ld_unit_zero (S := S2048x512) zero2, View.ld_unit_zero (S := S1x1) zero2]
  show k0_pay12 (k0_pay11 (View.ld (scoreBlock x0 x1 x2 x3 x4 x5 x6 x7)
    (Rect.unit (s := S16x64) ![0, 0] S16x64.size inb_S16x64_S16x64_0_0))) = _
  rw [View.ld_unit_zero (S := S16x64) zero2]

/-- The first output block: the context vectors computed from the score block and the four hidden chunks. -/
theorem context_block (c : Dev nD) (i : grid0.Coords) (arg1 : Memref sig .tc .vmem S16x1024 .f32) (harg1 : arg1.IsWhole) (arg2 : Memref sig .tc .vmem S16x64x2048 .f32) (harg2 : arg2.IsWhole) (arg3 : Memref sig .tc .vmem S1024x512 .bf16) (harg3 : arg3.IsWhole) (arg4 : Memref sig .tc .vmem S1x512 .f32) (harg4 : arg4.IsWhole) (arg5 : Memref sig .tc .vmem S2048x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S16x2048 .f32) (harg9 : arg9.IsWhole) (arg10 : Memref sig .tc .vmem S16x64 .f32) (harg10 : arg10.IsWhole) (arg11 : Memref sig .tc .vmem S16x64 .f32) (harg11 : arg11.IsWhole)
    (x0 : Vec F S16x1024 .f32) (x1 : Vec F S16x64x2048 .f32) (x2 : Vec F S1024x512 .bf16) (x3 : Vec F S1x512 .f32) (x4 : Vec F S2048x512 .bf16) (x5 : Vec F S1x512 .f32) (x6 : Vec F S1x512 .f32) (x7 : Vec F S1x1 .f32) :
    out0_A_8 c i arg1 harg1 arg2 harg2 arg3 harg3 arg4 harg4 arg5 harg5 arg6 harg6 arg7 harg7 arg8 harg8 arg9 harg9 arg10 harg10 arg11 harg11 x0 x1 x2 x3 x4 x5 x6 x7
      = k0_pay13 (k0_pay11 (scoreBlock x0 x1 x2 x3 x4 x5 x6 x7)) (hiddenChunk0 x1) (hiddenChunk1 x1) (hiddenChunk2 x1)
          (hiddenChunk3 x1) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 x0 x1 x2 x3 x4 x5 x6 x7)]
  unfold kernelRun0_A
  dsimp only
  sl_unfold_words
  rw [View.canon_unit_zero zero2, View.readCov_eq_canon']
  simp only [View.readAt_eq_ld, harg1.read_unread, harg2.read_unread, harg3.read_unread, harg4.read_unread, harg5.read_unread,
    harg6.read_unread, harg7.read_unread, harg8.read_unread,
    View.ld_unit_zero (S := S16x1024) zero2, View.ld_unit_zero (S := S1024x512) zero2, View.ld_unit_zero (S := S1x512) zero2,
    View.ld_unit_zero (S := S2048x512) zero2, View.ld_unit_zero (S := S1x1) zero2]
  show k0_pay13 (k0_pay11 (View.ld (scoreBlock x0 x1 x2 x3 x4 x5 x6 x7)
    (Rect.unit (s := S16x64) ![0, 0] S16x64.size inb_S16x64_S16x64_0_0))) (hiddenChunk0 x1) (hiddenChunk1 x1) (hiddenChunk2 x1)
      (hiddenChunk3 x1) = _
  rw [View.ld_unit_zero (S := S16x64) zero2]

end Cert.KernelIdeal.Body

end
-- ==== Proof.LibMatmul.lean ====
/-
  A matrix product of two rank-2 arrays read at coordinates. For dimension numbers that contract the left operand's
  second axis against the right operand's first, keep the left rows and the right columns and have no batch axis,
  the entry (p, q) of the product is the sum over the contracted position j of lhs (p, j) · rhs (j, q): the left
  operand is read along row p, the right operand along column q. Both the matrix unit's product into a zero
  accumulator and the host's dot product are that sum on the extended reals.
-/
import Idealize.ShloMosaic.Lib.ValueIdx
import Idealize.ShloMosaic.PureOps.Ideal.Laws

open scoped BigOperators

namespace Idealize.ShloMosaic.ValueIdx

open Idealize.ShloMosaic

section RowsByColumns

variable {a k b : ℕ} (d : DotDims ⟨2, ![a, k]⟩ ⟨2, ![k, b]⟩ ⟨2, ![a, b]⟩)

/-- One contracted axis. -/
theorem dot_contr_rank (hl : d.lhsContracting = [1]) : d.contr.rank = 1 := by
  rw [d.rank_contr, hl]; rfl

/-- Its extent is the shared inner extent k. -/
theorem dot_contr_size (hl : d.lhsContracting = [1]) :
    d.contr.size ⟨0, by rw [dot_contr_rank d hl]; exact Nat.one_pos⟩ = k := by
  rw [d.size_contr 0 (by rw [hl]; exact Nat.one_pos), List.getElem_of_eq hl]
  rfl

/-- The contraction index is its one coordinate. -/
noncomputable def dotEquiv (hl : d.lhsContracting = [1]) : d.contr.Idx ≃ Fin k :=
  contrEquiv1 d k (dot_contr_rank d hl) (dot_contr_size d hl)

/-- The left operand is read at row p, contracted position j. -/
theorem dot_lhsIdx_ix2 (hl : d.lhsContracting = [1]) (hln : d.lhsNonContracting = [0]) (hlb : d.lhsBatch = [])
    (p : Fin a) (q : Fin b) (j : Fin k) :
    d.lhsIdx (ix2 p q) ((dotEquiv d hl).symm j) = ix2 p j := by
  funext ax
  apply Fin.ext
  match ax with
  | ⟨0, _⟩ =>
    have hnb : (0 : Fin 2) ∉ d.lhsBatch := by rw [hlb]; exact List.not_mem_nil
    have hn : (0 : Fin 2) ∈ d.lhsNonContracting := by rw [hln]; exact List.mem_singleton.mpr rfl
    show (d.lhsIdx (ix2 p q) ((dotEquiv d hl).symm j) (0 : Fin 2)).val = p.val
    unfold DotDims.lhsIdx
    rw [dif_neg hnb, dif_pos hn]
    simp only [Fin.val_cast]
    have key : ∀ (n : ℕ) (hn : n < (⟨2, ![a, b]⟩ : Shape).rank), n = 0 → ((ix2 p q) ⟨n, hn⟩).val = p.val :=
      fun n hn h => by subst h; rfl
    exact key _ _ (by simp [hlb, hln])
  | ⟨1, _⟩ =>
    show (d.lhsIdx (ix2 p q) ((dotEquiv d hl).symm j) (1 : Fin 2)).val = j.val
    rw [d.lhsIdx_val_of_single hl]
    exact contrEquiv1_symm_val d k (dot_contr_rank d hl) (dot_contr_size d hl) j

/-- The right operand is read at contracted position j, column q. -/
theorem dot_rhsIdx_ix2 (hl : d.lhsContracting = [1]) (hr : d.rhsContracting = [0]) (hln : d.lhsNonContracting = [0])
    (hrn : d.rhsNonContracting = [1]) (hlb : d.lhsBatch = []) (hrb : d.rhsBatch = [])
    (p : Fin a) (q : Fin b) (j : Fin k) :
    d.rhsIdx (ix2 p q) ((dotEquiv d hl).symm j) = ix2 j q := by
  funext ax
  apply Fin.ext
  match ax with
  | ⟨0, _⟩ =>
    show (d.rhsIdx (ix2 p q) ((dotEquiv d hl).symm j) (0 : Fin 2)).val = j.val
    rw [d.rhsIdx_val_of_single hr]
    exact contrEquiv1_symm_val d k (dot_contr_rank d hl) (dot_contr_size d hl) j
  | ⟨1, _⟩ =>
    have hnb : (1 : Fin 2) ∉ d.rhsBatch := by rw [hrb]; exact List.not_mem_nil
    have hn : (1 : Fin 2) ∈ d.rhsNonContracting := by rw [hrn]; exact List.mem_singleton.mpr rfl
    show (d.rhsIdx (ix2 p q) ((dotEquiv d hl).symm j) (1 : Fin 2)).val = q.val
    unfold DotDims.rhsIdx
    rw [dif_neg hnb, dif_pos hn]
    simp only [Fin.val_cast]
    have key : ∀ (n : ℕ) (hn : n < (⟨2, ![a, b]⟩ : Shape).rank), n = 1 → ((ix2 p q) ⟨n, hn⟩).val = q.val :=
      fun n hn h => by subst h; rfl
    exact key _ _ (by simp [hlb, hln, hrn])

variable {φ₁ φ₂ : FTy}

/-- The matrix unit's product into the zero accumulator, at (p, q). -/
theorem matmul_zero_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  rw [Ideal.matmul_constant_zero_apply, ← Equiv.sum_comp (dotEquiv d hl).symm]
  refine Finset.sum_congr rfl fun j _ => ?_
  rw [dot_lhsIdx_ix2 d hl hln hlb p q j, dot_rhsIdx_ix2 d hl hr hln hrn hlb hrb p q j]

/-- The host's dot product, at (p, q). -/
theorem dotGeneral_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![a, k]⟩ φ₁) (rhs : FVec Ideal ⟨2, ![k, b]⟩ φ₂)
    (p : Fin a) (q : Fin b) :
    FloatOps.dotGeneral d prec sched lhs rhs (ix2 p q) = ∑ j : Fin k, lhs (ix2 p j) * rhs (ix2 j q) := by
  rw [Ideal.dotGeneral_apply, ← Equiv.sum_comp (dotEquiv d hl).symm]
  refine Finset.sum_congr rfl fun j _ => ?_
  rw [dot_lhsIdx_ix2 d hl hln hlb p q j, dot_rhsIdx_ix2 d hl hr hln hrn hlb hrb p q j]

end RowsByColumns

end Idealize.ShloMosaic.ValueIdx
-- ==== Proof.LibColumns.lean ====
/-
  Column forms of a keepdims reduction, read at coordinates: a vector of `a` entries cast to the column `[a, 1]` reads
  its entry `i` at `(i, 0)`, and a column `[a, 1]` broadcast along `b` columns reads, at `(p, c)`, the column at
  `(p, 0)` — so a per-row value (a row maximum, a row sum) laid against every entry of its row is that row's value.
-/
import Idealize.ShloMosaic.Lib.ValueIdx
import Idealize.ShloMosaic.Lib.Pipeline.Value

namespace Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A per-row value cast to a column and broadcast along the row reads, at `(p, c)`, the value of row `p`. -/
theorem broadcastTo_column_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

end Idealize.ShloMosaic.ValueIdx
-- ==== Proof.LibRowReduce.lean ====
/-
  A matrix reduced along its rows, and small values spread over a block, read at coordinates for any extents.
  • REDUCTIONS over the extended reals of an `[a, b]` vector along its LAST axis, one value per row: the sum at row `p`
    is the sum over `k` of the source at `(p, k)`, and the maximum is the fold of `max`, from the starting word's value,
    over `k` of the source at `(p, k)` (`multiReduction_add_rows`, `multiReduction_max_rows`) — what a softmax along
    the lanes of a row needs.
  • A ROW VECTOR GIVEN TWO UNIT AXES: `[1, c] → [1, 1, c]` reads `(0, 0, f)` at `(0, f)` (`shapeCast_1c_11c_apply`).
  • ONE VALUE SPREAD OVER A MATRIX: `[1, 1] → [a, b]` reads the one entry everywhere (`broadcastTo_11_ab_apply`).
-/
import Idealize.ShloMosaic.Lib.Pipeline.Value
import Idealize.ShloMosaic.Lib.ValueIdx
import Idealize.ShloMosaic.PureOps.Ideal.Laws

noncomputable section

open scoped BigOperators

namespace Cert.LibRowReduce

open Idealize.ShloMosaic Idealize.ShloMosaic.ValueIdx

variable {α : Type}

/-- A `[1, c]` row cast to `[1, 1, c]` reads, at `(u, v, f)`, the operand at `(0, f)`. -/
theorem shapeCast_1c_11c_apply {c : ℕ} (x : (⟨2, ![1, c]⟩ : Shape).Idx → α)
    (h : (⟨2, ![1, c]⟩ : Shape).ShapeCasts ⟨3, ![1, 1, c]⟩) (u v : Fin 1) (f : Fin c) :
    shapeCast ⟨3, ![1, 1, c]⟩ x h (ix3 u v f) = x (ix2 (0 : Fin 1) f) :=
  shapeCast_apply x h _ _ (by
    have hu : u.val = 0 := by omega
    have hv : v.val = 0 := by omega
    rw [Shape.rowMajor_val_three, Shape.rowMajor_val_two]
    show 0 * c + f.val = (u.val * 1 + v.val) * c + f.val
    rw [hu, hv])

/-- A `[1, 1]` array spread to `[a, b]` reads its one entry at every `(p, q)`. -/
theorem broadcastTo_11_ab_apply {a b : ℕ} (x : (⟨2, ![1, 1]⟩ : Shape).Idx → α)
    (h : (⟨2, ![1, 1]⟩ : Shape).Broadcasts ⟨2, ![a, b]⟩) (p : Fin a) (q : Fin b) :
    broadcastTo ⟨2, ![a, b]⟩ x h (ix2 p q) = x (ix2 (0 : Fin 1) (0 : Fin 1)) := by
  refine broadcastTo_apply x h (ix2 p q) (ix2 (0 : Fin 1) (0 : Fin 1)) fun ax => ?_
  match ax with
  | ⟨0, _⟩ => rfl
  | ⟨1, _⟩ => rfl

section Reductions
variable {φ : FTy}

/-- A sum along the rows of an `[a, b]` vector: at row `p`, the sum over `k` of the source at `(p, k)`. -/
theorem multiReduction_add_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A maximum along the rows of an `[a, b]` vector: at row `p`, the fold of `max`, from the starting word's value, over
    `k` of the source at `(p, k)`. -/
theorem multiReduction_max_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (Finset.fold_congr fun k _ => congrArg src (funext fun ax => Fin.ext (by
      match ax with
      | ⟨0, _⟩ => rfl
      | ⟨1, _⟩ => rfl)))

end Reductions

end Cert.LibRowReduce

end
-- ==== Proof.KernelPayloads.lean ====
/-
  The kernel body's arithmetic read at an index, on the extended reals.

  Row `r` of a block is one batch entry. Its projected query is `queryProj` of row `r` of the query block against the
  first weight matrix and bias; the score the body computes for sequence position `u` of a chunk is `score` of that
  projected query and the projected hidden row `u` of the chunk — the chunk's rows are folded into a `[256, 2048]`
  matrix for the product (row `16·r + u` is row `u` of slab `r`) and unfolded again. The four chunks are computed by the
  same expression; the body's text cuts it at different places, which the three identities at the top undo. From the
  `[16, 64]` scores the body takes each row's maximum and sum along the lanes, and the context is the running sum, from
  zero, over the four chunks of the weights times the hidden rows summed over the chunk's sixteen positions.
-/
import proofs.«110587_j52175262712194_2_alg».proof.Proof.KernelPieces
import proofs.«110587_j52175262712194_2_alg».proof.Proof.RowAttention
import proofs.«110587_j52175262712194_2_alg».proof.Proof.LibMatmul
import proofs.«110587_j52175262712194_2_alg».proof.Proof.LibRank3Layout
import proofs.«110587_j52175262712194_2_alg».proof.Proof.LibColumns
import proofs.«110587_j52175262712194_2_alg».proof.Proof.LibRowReduce
import Idealize.ShloMosaic.Lib.ValueLayout

noncomputable section

open scoped BigOperators

namespace Cert.KernelIdeal.Body

open Idealize.ShloMosaic Idealize.ShloMosaic.ValueIdx Cert.KernelIdeal Cert.KernelIdeal.Gen
open Cert.RowAttention Cert.LibRank3 Cert.LibRowReduce

/-! ## The four chunks are one computation -/

section AnyValues
variable {F : FTy → Type} [FloatOps F]

/-- The first chunk's score payload is the common chunk computation on the projected query, the scorer and its bias. -/
theorem chunk0_eq (x0 : Vec F S16x1024 .f32) (x2 : Vec F S1024x512 .bf16) (x3 : Vec F S1x512 .f32) (x6 : Vec F S1x512 .f32)
    (x7 : Vec F S1x1 .f32) (hc : Vec F S16x16x2048 .f32) (x4 : Vec F S2048x512 .bf16) (x5 : Vec F S1x512 .f32) :
    k0_pay5 (k0_pay4 x0 x2 x3 x6 x7 hc x4 x5) = k0_pay6 (k0_pay1 x0 x2 x3) (k0_pay2 x6) (k0_pay3 x7) hc x4 x5 := rfl

/-- The third chunk's, whose projection of the hidden rows and spread of the projected query are computed ahead. -/
theorem chunk2_eq (w1 : FVec F S16x512 .f32) (v : FVec F S1x1x512 .f32) (bv : FVec F S1x1 .f32) (hc : Vec F S16x16x2048 .f32)
    (x4 : Vec F S2048x512 .bf16) (x5 : Vec F S1x512 .f32) :
    k0_pay9 v bv (k0_pay7 hc x4 x5) (k0_pay8 w1) = k0_pay6 w1 v bv hc x4 x5 := rfl

/-- The fourth chunk's. -/
theorem chunk3_eq (w1 : FVec F S16x512 .f32) (v : FVec F S1x1x512 .f32) (bv : FVec F S1x1 .f32) (hc : Vec F S16x16x2048 .f32)
    (x4 : Vec F S2048x512 .bf16) (x5 : Vec F S1x512 .f32) :
    k0_pay10 w1 v bv hc x4 x5 = k0_pay6 w1 v bv hc x4 x5 := rfl

end AnyValues

/-! ## At the extended reals -/

/-- The one row of a `[1, n]` block as a function of the column. -/
def onlyRow {n : ℕ} (x : (⟨2, ![1, n]⟩ : Shape).Idx → EReal) (a : Fin n) : EReal := x (ix2 (0 : Fin 1) a)

/-- A vector `tanh` read at an index. -/
theorem tanh_apply {s : Shape} {φ : FTy} (x : FVec Ideal s φ) (i : s.Idx) :
    Idealize.ShloMosaic.tanh x i = Ideal.tanh (x i) := rfl

/-- A vector `exp` read at an index. -/
theorem exp_apply {s : Shape} {φ : FTy} (x : FVec Ideal s φ) (i : s.Idx) :
    Idealize.ShloMosaic.exp x i = Ideal.exp (x i) := rfl

/-- The projected query of block row `r`. -/
theorem query_apply (x0 : Vec Ideal S16x1024 .f32) (x2 : Vec Ideal S1024x512 .bf16) (x3 : Vec Ideal S1x512 .f32)
    (r : Fin 16) (a : Fin 512) :
    k0_pay1 (F := Ideal) x0 x2 x3 (ix2 r a) = queryProj (rows2 x0 r) (rows2 x2) (onlyRow x3) a := by
  unfold k0_pay1
  rw [addf_apply]
  refine (congrArg₂ (· + ·)
    (matmul_zero_ix2 dot_S16x1024_S1024x512_S16x512_1_0_0_1_n_n rfl rfl rfl rfl rfl rfl none _ _ r a) rfl).trans ?_
  rw [broadcastTo_1b_ab_apply, shapeCast_self, shapeCast_self]
  unfold queryProj
  refine congrArg₂ (· + ·) (Finset.sum_congr rfl fun j _ => ?_) rfl
  rw [truncf_apply]
  rfl

/-- The scorer as the body holds it, `[1, 1, 512]`, at unit `a`. -/
theorem scorer_apply (x6 : Vec Ideal S1x512 .f32) (a : Fin 512) :
    k0_pay2 (F := Ideal) x6 (ix3 (0 : Fin 1) (0 : Fin 1) a) = onlyRow x6 a := by
  unfold k0_pay2
  rw [shapeCast_1c_11c_apply, shapeCast_self]
  rfl

/-- The scorer's bias as the body holds it. -/
theorem scorerBias_apply (x7 : Vec Ideal S1x1 .f32) :
    k0_pay3 (F := Ideal) x7 (ix2 (0 : Fin 1) (0 : Fin 1)) = x7 (ix2 (0 : Fin 1) (0 : Fin 1)) := by
  unfold k0_pay3
  rw [shapeCast_self]

/-- The common chunk computation at block row `r`, chunk position `u`: the score of the projected query `w1` of row `r`
    against hidden row `u` of slab `r` of the chunk. -/
theorem chunk_apply (w1 : FVec Ideal S16x512 .f32) (v : FVec Ideal S1x1x512 .f32) (bv : FVec Ideal S1x1 .f32)
    (hc : Vec Ideal S16x16x2048 .f32) (x4 : Vec Ideal S2048x512 .bf16) (x5 : Vec Ideal S1x512 .f32) (r u : Fin 16) :
    k0_pay6 (F := Ideal) w1 v bv hc x4 x5 (ix2 r u)
      = score (fun a => w1 (ix2 r a)) (hiddenProj (rows3 hc r u) (rows2 x4) (onlyRow x5))
          (fun a => v (ix3 (0 : Fin 1) (0 : Fin 1) a)) (bv (ix2 (0 : Fin 1) (0 : Fin 1))) := by
  have hru : r.val * 16 + u.val < 256 := by have := r.isLt; have := u.isLt; omega
  unfold k0_pay6
  rw [shapeCast_self, addf_apply]
  refine (congrArg₂ (· + ·) (multiReduction_add_last _ _ _ _ _ r u) (broadcastTo_11_ab_apply _ _ r u)).trans ?_
  unfold score
  refine congrArg₂ (· + ·) (Finset.sum_congr rfl fun a _ => ?_) rfl
  rw [mulf_apply, broadcastTo_11c_abc_apply, tanh_apply, addf_apply, broadcastTo_a1c_abc_apply, shapeCast_ac_a1c_apply,
    addf_apply, shapeCast_nc_abc_apply _ _ r u a ⟨r.val * 16 + u.val, hru⟩ rfl, broadcastTo_11c_abc_apply,
    shapeCast_1c_11c_apply, shapeCast_self, shapeCast_self]
  unfold hiddenProj
  refine congrArg₂ (· * ·) (congrArg Ideal.tanh (congrArg₂ (· + ·) rfl (congrArg₂ (· + ·) ?_ rfl))) rfl
  refine (matmul_zero_ix2 (φ₁ := .bf16) (φ₂ := .bf16) dot_S256x2048_S2048x512_S256x512_1_0_0_1_n_n rfl rfl rfl rfl rfl rfl none
    _ _ ⟨r.val * 16 + u.val, hru⟩ a).trans (Finset.sum_congr rfl fun f _ => ?_)
  rw [shapeCast_abc_nc_apply _ _ r u f ⟨r.val * 16 + u.val, hru⟩ rfl, truncf_apply]
  rfl

end Cert.KernelIdeal.Body

end
-- ==== Proof.KernelSoftmax.lean ====
/-
  One block of the kernel at an index, on the extended reals: its second output block holds the attention weights of the
  block's sixteen batch entries and its first the context vectors.

  The score block the scratch holds is, at row `r` and sequence position `t`, the score of batch entry `r` against its
  hidden row `t` (`blockScores`): position `t` lies in exactly one of the four column ranges the stores fill, and there
  the store's payload is the common chunk computation at position `t − 16·c` of chunk `c`, whose hidden rows are rows
  `16·c + u` of the slab. The row maximum and the row sum are lane reductions along the row; the context is the running
  sum from zero over the four chunks, which regrouped is the one sum over all sixty-four positions.
-/
import proofs.«110587_j52175262712194_2_alg».proof.Proof.KernelPayloads

noncomputable section

open scoped BigOperators

namespace Cert.KernelIdeal.Body

open Idealize.ShloMosaic Idealize.ShloMosaic.ValueIdx Cert.KernelIdeal Cert.KernelIdeal.Gen
open Cert.RowAttention Cert.LibRank3 Cert.LibRowReduce

/-- The scores of block row `r`: batch entry `r` of the block against its 64 hidden rows. -/
def blockScores (x0 : Vec Ideal S16x1024 .f32) (x1 : Vec Ideal S16x64x2048 .f32) (x2 : Vec Ideal S1024x512 .bf16) (x3 : Vec Ideal S1x512 .f32)
    (x4 : Vec Ideal S2048x512 .bf16) (x5 : Vec Ideal S1x512 .f32) (x6 : Vec Ideal S1x512 .f32) (x7 : Vec Ideal S1x1 .f32) (r : Fin 16) : Fin 64 → EReal :=
  scores (rows2 x0 r) (rows3 x1 r) (rows2 x2) (onlyRow x3) (rows2 x4) (onlyRow x5) (onlyRow x6) (x7 (ix2 (0 : Fin 1) (0 : Fin 1)))

/-! ## The hidden chunks are rows of the slabs -/

theorem hiddenChunk0_apply (x1 : Vec Ideal S16x64x2048 .f32) (r u : Fin 16) (f : Fin 2048) :
    hiddenChunk0 x1 (ix3 r u f) = x1 (ix3 r (chunkPos 0 u) f) := by
  show x1 _ = x1 _
  refine congrArg x1 (funext fun a => Fin.ext ?_)
  match a with
  | ⟨0, _⟩ => show 0 + 1 * r.val = r.val; omega
  | ⟨1, _⟩ => show 0 + 1 * u.val = 16 * 0 + u.val; omega
  | ⟨2, _⟩ => show 0 + 1 * f.val = f.val; omega

theorem hiddenChunk1_apply (x1 : Vec Ideal S16x64x2048 .f32) (r u : Fin 16) (f : Fin 2048) :
    hiddenChunk1 x1 (ix3 r u f) = x1 (ix3 r (chunkPos 1 u) f) := by
  show x1 _ = x1 _
  refine congrArg x1 (funext fun a => Fin.ext ?_)
  match a with
  | ⟨0, _⟩ => show 0 + 1 * r.val = r.val; omega
  | ⟨1, _⟩ => show 16 + 1 * u.val = 16 * 1 + u.val; omega
  | ⟨2, _⟩ => show 0 + 1 * f.val = f.val; omega

theorem hiddenChunk2_apply (x1 : Vec Ideal S16x64x2048 .f32) (r u : Fin 16) (f : Fin 2048) :
    hiddenChunk2 x1 (ix3 r u f) = x1 (ix3 r (chunkPos 2 u) f) := by
  show x1 _ = x1 _
  refine congrArg x1 (funext fun a => Fin.ext ?_)
  match a with
  | ⟨0, _⟩ => show 0 + 1 * r.val = r.val; omega
  | ⟨1, _⟩ => show 32 + 1 * u.val = 16 * 2 + u.val; omega
  | ⟨2, _⟩ => show 0 + 1 * f.val = f.val; omega

theorem hiddenChunk3_apply (x1 : Vec Ideal S16x64x2048 .f32) (r u : Fin 16) (f : Fin 2048) :
    hiddenChunk3 x1 (ix3 r u f) = x1 (ix3 r (chunkPos 3 u) f) := by
  show x1 _ = x1 _
  refine congrArg x1 (funext fun a => Fin.ext ?_)
  match a with
  | ⟨0, _⟩ => show 0 + 1 * r.val = r.val; omega
  | ⟨1, _⟩ => show 48 + 1 * u.val = 16 * 3 + u.val; omega
  | ⟨2, _⟩ => show 0 + 1 * f.val = f.val; omega

/-! ## The score block -/

/-- The common chunk computation on chunk `c`'s hidden rows, at row `r` and chunk position `u`, is the score of batch entry `r`
    against hidden row `16·c + u`. -/
theorem chunk_scores (x0 : Vec Ideal S16x1024 .f32) (x1 : Vec Ideal S16x64x2048 .f32) (x2 : Vec Ideal S1024x512 .bf16) (x3 : Vec Ideal S1x512 .f32)
    (x4 : Vec Ideal S2048x512 .bf16) (x5 : Vec Ideal S1x512 .f32) (x6 : Vec Ideal S1x512 .f32) (x7 : Vec Ideal S1x1 .f32) (c : Fin 4) (hc : Vec Ideal S16x16x2048 .f32)
    (hhc : ∀ (r u : Fin 16) (f : Fin 2048), hc (ix3 r u f) = x1 (ix3 r (chunkPos c u) f)) (r u : Fin 16) :
    k0_pay6 (F := Ideal) (k0_pay1 x0 x2 x3) (k0_pay2 x6) (k0_pay3 x7) hc x4 x5 (ix2 r u)
      = blockScores x0 x1 x2 x3 x4 x5 x6 x7 r (chunkPos c u) := by
  have e1 : (fun a => k0_pay1 (F := Ideal) x0 x2 x3 (ix2 r a)) = queryProj (rows2 x0 r) (rows2 x2) (onlyRow x3) :=
    funext fun a => query_apply x0 x2 x3 r a
  have e2 : rows3 hc r u = rows3 x1 r (chunkPos c u) := funext fun f => hhc r u f
  have e3 : (fun a => k0_pay2 (F := Ideal) x6 (ix3 (0 : Fin 1) (0 : Fin 1) a)) = onlyRow x6 := funext fun a => scorer_apply x6 a
  rw [chunk_apply, e1, e2, e3, scorerBias_apply]
  rfl

/-- The scores as one function of the block index, for comparing the stores' payloads against. -/
def scoreAt (x0 : Vec Ideal S16x1024 .f32) (x1 : Vec Ideal S16x64x2048 .f32) (x2 : Vec Ideal S1024x512 .bf16) (x3 : Vec Ideal S1x512 .f32)
    (x4 : Vec Ideal S2048x512 .bf16) (x5 : Vec Ideal S1x512 .f32) (x6 : Vec Ideal S1x512 .f32) (x7 : Vec Ideal S1x1 .f32) : S16x64.Idx → EReal :=
  fun y => blockScores x0 x1 x2 x3 x4 x5 x6 x7 ⟨(y 0).val, idx2_lt0 y⟩ ⟨(y 1).val, idx2_lt1 y⟩

/-- A store of chunk `c`'s scores into columns `16·c …` agrees with `scoreAt` on its rectangle. -/
theorem piece_agrees (x0 : Vec Ideal S16x1024 .f32) (x1 : Vec Ideal S16x64x2048 .f32) (x2 : Vec Ideal S1024x512 .bf16) (x3 : Vec Ideal S1x512 .f32)
    (x4 : Vec Ideal S2048x512 .bf16) (x5 : Vec Ideal S1x512 .f32) (x6 : Vec Ideal S1x512 .f32) (x7 : Vec Ideal S1x1 .f32) (c : Fin 4) (o : ℕ) (ho : o = 16 * c.val)
    (inb : ∀ a, (![0, o] : Fin 2 → ℕ) a + S16x16.size a ≤ S16x64.size a) (w : Vec Ideal S16x16 .f32)
    (hw : ∀ r u : Fin 16, w (ix2 r u) = blockScores x0 x1 x2 x3 x4 x5 x6 x7 r (chunkPos c u))
    (x : (Rect.unit (s := S16x64) ![0, o] S16x16.size inb).shape.Idx) :
    w x = scoreAt x0 x1 x2 x3 x4 x5 x6 x7 ((Rect.unit (s := S16x64) ![0, o] S16x16.size inb).emb x) := by
  obtain ⟨r, u, rfl⟩ : ∃ (r u : Fin 16), x = ix2 r u := ⟨x 0, x 1, eq_ix2 x⟩
  rw [hw]
  unfold scoreAt
  refine congrArg₂ (blockScores x0 x1 x2 x3 x4 x5 x6 x7) (Fin.ext ?_) (Fin.ext ?_)
  · show r.val = 0 + 1 * r.val; omega
  · show 16 * c.val + u.val = o + 1 * u.val; omega

/-- The score block at row `r`, position `t`. -/
theorem scoreBlock_apply (x0 : Vec Ideal S16x1024 .f32) (x1 : Vec Ideal S16x64x2048 .f32) (x2 : Vec Ideal S1024x512 .bf16) (x3 : Vec Ideal S1x512 .f32)
    (x4 : Vec Ideal S2048x512 .bf16) (x5 : Vec Ideal S1x512 .f32) (x6 : Vec Ideal S1x512 .f32) (x7 : Vec Ideal S1x1 .f32) (r : Fin 16) (t : Fin 64) :
    scoreBlock (F := Ideal) x0 x1 x2 x3 x4 x5 x6 x7 (ix2 r t) = blockScores x0 x1 x2 x3 x4 x5 x6 x7 r t := by
  unfold scoreBlock
  refine (View.canon_apply_of_pieces (scoreAt x0 x1 x2 x3 x4 x5 x6 x7) _ ?_ (ix2 r t) ?_).trans rfl
  · refine List.forall_mem_cons.mpr ⟨?_, List.forall_mem_cons.mpr ⟨?_, List.forall_mem_cons.mpr ⟨?_, List.forall_mem_cons.mpr
      ⟨?_, fun _ h => nomatch h⟩⟩⟩⟩
    · exact piece_agrees x0 x1 x2 x3 x4 x5 x6 x7 3 48 rfl inb_S16x64_S16x16_0_48 _ fun r u => by
        rw [chunk3_eq]; exact chunk_scores x0 x1 x2 x3 x4 x5 x6 x7 3 _ (hiddenChunk3_apply x1) r u
    · exact piece_agrees x0 x1 x2 x3 x4 x5 x6 x7 2 32 rfl inb_S16x64_S16x16_0_32 _ fun r u => by
        rw [chunk2_eq]; exact chunk_scores x0 x1 x2 x3 x4 x5 x6 x7 2 _ (hiddenChunk2_apply x1) r u
    · exact piece_agrees x0 x1 x2 x3 x4 x5 x6 x7 1 16 rfl inb_S16x64_S16x16_0_16 _ fun r u =>
        chunk_scores x0 x1 x2 x3 x4 x5 x6 x7 1 _ (hiddenChunk1_apply x1) r u
    · exact piece_agrees x0 x1 x2 x3 x4 x5 x6 x7 0 0 rfl inb_S16x64_S16x16_0_0 _ fun r u => by
        rw [chunk0_eq]; exact chunk_scores x0 x1 x2 x3 x4 x5 x6 x7 0 _ (hiddenChunk0_apply x1) r u
  · -- position `t` lies in one of the four column ranges
    have ht := t.isLt
    have hr := r.isLt
    by_cases h1 : t.val < 16
    · refine ⟨_, List.mem_cons_of_mem _ (List.mem_cons_of_mem _ (List.mem_cons_of_mem _ List.mem_cons_self)), ?_⟩
      rw [Rect.mem_set_unit]
      intro a
      match a with
      | ⟨0, _⟩ => exact ⟨Nat.zero_le _, by show r.val < 0 + 16; omega⟩
      | ⟨1, _⟩ => exact ⟨Nat.zero_le _, by show t.val < 0 + 16; omega⟩
    by_cases h2 : t.val < 32
    · refine ⟨_, List.mem_cons_of_mem _ (List.mem_cons_of_mem _ List.mem_cons_self), ?_⟩
      rw [Rect.mem_set_unit]
      intro a
      match a with
      | ⟨0, _⟩ => exact ⟨Nat.zero_le _, by show r.val < 0 + 16; omega⟩
      | ⟨1, _⟩ => exact ⟨by show 16 ≤ t.val; omega, by show t.val < 16 + 16; omega⟩
    by_cases h3 : t.val < 48
    · refine ⟨_, List.mem_cons_of_mem _ List.mem_cons_self, ?_⟩
      rw [Rect.mem_set_unit]
      intro a
      match a with
      | ⟨0, _⟩ => exact ⟨Nat.zero_le _, by show r.val < 0 + 16; omega⟩
      | ⟨1, _⟩ => exact ⟨by show 32 ≤ t.val; omega, by show t.val < 32 + 16; omega⟩
    · refine ⟨_, List.mem_cons_self, ?_⟩
      rw [Rect.mem_set_unit]
      intro a
      match a with
      | ⟨0, _⟩ => exact ⟨Nat.zero_le _, by show r.val < 0 + 16; omega⟩
      | ⟨1, _⟩ => exact ⟨by show 48 ≤ t.val; omega, by show t.val < 48 + 16; omega⟩

end Cert.KernelIdeal.Body

end
-- ==== Proof.KernelBlockValue.lean ====
/-
  The two output blocks of one run of the body, at an index: the softmax weights and the context vectors of the block's
  sixteen batch entries.

  From the score block `L` the body takes, row by row along the lanes, the maximum `M r` (from −∞) and, of
  `e = exp (L − M)`, the sum; the weights are `e / sum`. The context of row `r` at feature `f` is built chunk by chunk:
  starting from zero, each chunk adds the sum over its sixteen positions `u` of `weight (r, 16·c + u) · hidden (r, 16·c + u, f)`.
  Zero plus four chunk sums is the sum over all sixty-four positions (`sum_chunks`).
-/
import proofs.«110587_j52175262712194_2_alg».proof.Proof.KernelSoftmax

noncomputable section

open scoped BigOperators

namespace Cert.KernelIdeal.Body

open Idealize.ShloMosaic Idealize.ShloMosaic.ValueIdx Cert.KernelIdeal Cert.KernelIdeal.Gen
open Cert.RowAttention Cert.LibRank3 Cert.LibRowReduce

/-- A score shifted by its row's maximum and exponentiated. -/
theorem shifted_apply (L : Vec Ideal S16x64 .f32) (r : Fin 16) (t : Fin 64) :
    k0_pay11 (F := Ideal) L (ix2 r t) = shifted (rows2 L r) t := by
  unfold k0_pay11
  rw [exp_apply, subf_apply, broadcastTo_column_apply]
  unfold shifted rowMax negInf
  exact congrArg Ideal.exp (congrArg₂ (· - ·) rfl (multiReduction_max_rows _ _ _ _ _ r))

/-- An exponentiated score divided by its row's sum. -/
theorem normalized_apply (E : FVec Ideal S16x64 .f32) (r : Fin 16) (t : Fin 64) :
    k0_pay12 (F := Ideal) E (ix2 r t) = Ideal.div (E (ix2 r t)) (∑ k : Fin 64, E (ix2 r k)) := by
  unfold k0_pay12
  rw [divf_apply, broadcastTo_column_apply]
  exact congrArg (Ideal.div _) (multiReduction_add_rows _ _ _ _ _ r)

/-- The second output block: at row `r`, position `t`, the softmax weight of batch entry `r`'s scores. -/
theorem blockWeights_apply (x0 : Vec Ideal S16x1024 .f32) (x1 : Vec Ideal S16x64x2048 .f32) (x2 : Vec Ideal S1024x512 .bf16) (x3 : Vec Ideal S1x512 .f32)
    (x4 : Vec Ideal S2048x512 .bf16) (x5 : Vec Ideal S1x512 .f32) (x6 : Vec Ideal S1x512 .f32) (x7 : Vec Ideal S1x1 .f32) (r : Fin 16) (t : Fin 64) :
    k0_pay12 (F := Ideal) (k0_pay11 (scoreBlock x0 x1 x2 x3 x4 x5 x6 x7)) (ix2 r t) = weights (blockScores x0 x1 x2 x3 x4 x5 x6 x7 r) t := by
  have hS : rows2 (scoreBlock (F := Ideal) x0 x1 x2 x3 x4 x5 x6 x7) r = blockScores x0 x1 x2 x3 x4 x5 x6 x7 r :=
    funext fun j => scoreBlock_apply x0 x1 x2 x3 x4 x5 x6 x7 r j
  have e : ∀ k : Fin 64, k0_pay11 (F := Ideal) (scoreBlock x0 x1 x2 x3 x4 x5 x6 x7) (ix2 r k) = shifted (blockScores x0 x1 x2 x3 x4 x5 x6 x7 r) k :=
    fun k => by rw [shifted_apply, hS]
  rw [normalized_apply, e t]
  unfold weights
  exact congrArg (Ideal.div _) (Finset.sum_congr rfl fun k _ => e k)

/-- The context payload at row `r`, feature `f`: from zero, the four chunk sums added in order. -/
theorem chunked_context_apply (E : FVec Ideal S16x64 .f32) (h0 h1 h2 h3 : Vec Ideal S16x16x2048 .f32) (r : Fin 16) (f : Fin 2048) :
    k0_pay13 (F := Ideal) E h0 h1 h2 h3 (ix2 r f)
      = ((((0 : EReal) + ∑ u : Fin 16, k0_pay12 (F := Ideal) E (ix2 r (chunkPos 0 u)) * h0 (ix3 r u f))
            + ∑ u : Fin 16, k0_pay12 (F := Ideal) E (ix2 r (chunkPos 1 u)) * h1 (ix3 r u f))
          + ∑ u : Fin 16, k0_pay12 (F := Ideal) E (ix2 r (chunkPos 2 u)) * h2 (ix3 r u f))
        + ∑ u : Fin 16, k0_pay12 (F := Ideal) E (ix2 r (chunkPos 3 u)) * h3 (ix3 r u f) := by
  have hs : ∀ b : BitVec 32, Scalar.ofBits (F := Ideal) .f32 b = Ideal.ofBits .f32 b := fun _ => rfl
  unfold k0_pay13
  rw [addf_apply, addf_apply, addf_apply, addf_apply, broadcast_apply, hs, Ideal.ofBits_zero_f32]
  refine congrArg₂ (· + ·) (congrArg₂ (· + ·) (congrArg₂ (· + ·) (congrArg₂ (· + ·) rfl ?_) ?_) ?_) ?_
  · refine (multiReduction_add_mid _ _ _ _ _ r f).trans (Finset.sum_congr rfl fun u _ => ?_)
    rw [mulf_apply, broadcastTo_ab1_abc_apply, shapeCast_ab_ab1_apply]
    exact congrArg₂ (· * ·) (slice2_axis1_apply 0 _ _ r u (chunkPos 0 u) (by simp [chunkPos])) rfl
  · refine (multiReduction_add_mid _ _ _ _ _ r f).trans (Finset.sum_congr rfl fun u _ => ?_)
    rw [mulf_apply, broadcastTo_ab1_abc_apply, shapeCast_ab_ab1_apply]
    exact congrArg₂ (· * ·) (slice2_axis1_apply 16 _ _ r u (chunkPos 1 u) (by simp [chunkPos])) rfl
  · refine (multiReduction_add_mid _ _ _ _ _ r f).trans (Finset.sum_congr rfl fun u _ => ?_)
    rw [mulf_apply, broadcastTo_ab1_abc_apply, shapeCast_ab_ab1_apply]
    exact congrArg₂ (· * ·) (slice2_axis1_apply 32 _ _ r u (chunkPos 2 u) (by simp [chunkPos])) rfl
  · refine (multiReduction_add_mid _ _ _ _ _ r f).trans (Finset.sum_congr rfl fun u _ => ?_)
    rw [mulf_apply, broadcastTo_ab1_abc_apply, shapeCast_ab_ab1_apply]
    exact congrArg₂ (· * ·) (slice2_axis1_apply 48 _ _ r u (chunkPos 3 u) (by simp [chunkPos])) rfl

/-- The first output block: at row `r`, feature `f`, the context of batch entry `r`. -/
theorem blockContext_apply (x0 : Vec Ideal S16x1024 .f32) (x1 : Vec Ideal S16x64x2048 .f32) (x2 : Vec Ideal S1024x512 .bf16) (x3 : Vec Ideal S1x512 .f32)
    (x4 : Vec Ideal S2048x512 .bf16) (x5 : Vec Ideal S1x512 .f32) (x6 : Vec Ideal S1x512 .f32) (x7 : Vec Ideal S1x1 .f32) (r : Fin 16) (f : Fin 2048) :
    k0_pay13 (F := Ideal) (k0_pay11 (scoreBlock x0 x1 x2 x3 x4 x5 x6 x7)) (hiddenChunk0 x1) (hiddenChunk1 x1) (hiddenChunk2 x1)
        (hiddenChunk3 x1) (ix2 r f)
      = context (weights (blockScores x0 x1 x2 x3 x4 x5 x6 x7 r)) (rows3 x1 r) f := by
  rw [chunked_context_apply, zero_add]
  unfold context
  rw [sum_chunks]
  simp only [blockWeights_apply]
  refine congrArg₂ (· + ·) (congrArg₂ (· + ·) (congrArg₂ (· + ·) ?_ ?_) ?_) ?_
  · exact Finset.sum_congr rfl fun u _ => congrArg₂ (· * ·) rfl (hiddenChunk0_apply x1 r u f)
  · exact Finset.sum_congr rfl fun u _ => congrArg₂ (· * ·) rfl (hiddenChunk1_apply x1 r u f)
  · exact Finset.sum_congr rfl fun u _ => congrArg₂ (· * ·) rfl (hiddenChunk2_apply x1 r u f)
  · exact Finset.sum_congr rfl fun u _ => congrArg₂ (· * ·) rfl (hiddenChunk3_apply x1 r u f)

/-! ## Against the whole arrays -/

/-- Row `r` of the block at grid point `i` is batch entry `16·i + r`. -/
def batchRow (i : Fin 64) (r : Fin 16) : Fin 1024 := ⟨16 * i.val + r.val, by have := i.isLt; have := r.isLt; omega⟩

/-- When the eight input blocks read as the rows `16·i …` of the query and hidden arrays and as the whole of the six
    parameter arrays (each in the layout the body is given it), the block's scores are the batch entries' scores. -/
theorem blockScores_eq (x0 : Vec Ideal S16x1024 .f32) (x1 : Vec Ideal S16x64x2048 .f32) (x2 : Vec Ideal S1024x512 .bf16) (x3 : Vec Ideal S1x512 .f32)
    (x4 : Vec Ideal S2048x512 .bf16) (x5 : Vec Ideal S1x512 .f32) (x6 : Vec Ideal S1x512 .f32) (x7 : Vec Ideal S1x1 .f32)
    (Q : (⟨2, ![1024, 1024]⟩ : Shape).Idx → EReal) (H : (⟨3, ![1024, 64, 2048]⟩ : Shape).Idx → EReal)
    (W1 : (⟨2, ![1024, 512]⟩ : Shape).Idx → EReal) (B1 : (⟨1, ![512]⟩ : Shape).Idx → EReal)
    (W2 : (⟨2, ![2048, 512]⟩ : Shape).Idx → EReal) (B2 : (⟨1, ![512]⟩ : Shape).Idx → EReal)
    (V : (⟨2, ![512, 1]⟩ : Shape).Idx → EReal) (BV : (⟨1, ![1]⟩ : Shape).Idx → EReal) (i : Fin 64)
    (h0 : ∀ (r : Fin 16) (j : Fin 1024), x0 (ix2 r j) = Q (ix2 (batchRow i r) j))
    (h1 : ∀ (r : Fin 16) (p : Fin 64) (f : Fin 2048), x1 (ix3 r p f) = H (ix3 (batchRow i r) p f))
    (h2 : ∀ (j : Fin 1024) (a : Fin 512), x2 (ix2 j a) = W1 (ix2 j a)) (h3 : ∀ a : Fin 512, x3 (ix2 (0 : Fin 1) a) = B1 (ix1 a))
    (h4 : ∀ (f : Fin 2048) (a : Fin 512), x4 (ix2 f a) = W2 (ix2 f a)) (h5 : ∀ a : Fin 512, x5 (ix2 (0 : Fin 1) a) = B2 (ix1 a))
    (h6 : ∀ a : Fin 512, x6 (ix2 (0 : Fin 1) a) = V (ix2 a (0 : Fin 1)))
    (h7 : x7 (ix2 (0 : Fin 1) (0 : Fin 1)) = BV (ix1 (0 : Fin 1))) (r : Fin 16) :
    blockScores x0 x1 x2 x3 x4 x5 x6 x7 r = scoresOf Q H W1 B1 W2 B2 V BV (batchRow i r) := by
  have e0 : rows2 x0 r = rows2 Q (batchRow i r) := funext fun j => h0 r j
  have e1 : rows3 x1 r = rows3 H (batchRow i r) := funext fun p => funext fun f => h1 r p f
  have e2 : rows2 x2 = rows2 W1 := funext fun j => funext fun a => h2 j a
  have e3 : onlyRow x3 = entries B1 := funext h3
  have e4 : rows2 x4 = rows2 W2 := funext fun f => funext fun a => h4 f a
  have e5 : onlyRow x5 = entries B2 := funext h5
  have e6 : onlyRow x6 = fun a => V (ix2 a (0 : Fin 1)) := funext h6
  unfold blockScores scoresOf
  rw [e0, e1, e2, e3, e4, e5, e6, h7]

/-- The second output block is the batch entries' attention weights. -/
theorem blockWeights_eq (x0 : Vec Ideal S16x1024 .f32) (x1 : Vec Ideal S16x64x2048 .f32) (x2 : Vec Ideal S1024x512 .bf16) (x3 : Vec Ideal S1x512 .f32)
    (x4 : Vec Ideal S2048x512 .bf16) (x5 : Vec Ideal S1x512 .f32) (x6 : Vec Ideal S1x512 .f32) (x7 : Vec Ideal S1x1 .f32)
    (Q : (⟨2, ![1024, 1024]⟩ : Shape).Idx → EReal) (H : (⟨3, ![1024, 64, 2048]⟩ : Shape).Idx → EReal)
    (W1 : (⟨2, ![1024, 512]⟩ : Shape).Idx → EReal) (B1 : (⟨1, ![512]⟩ : Shape).Idx → EReal)
    (W2 : (⟨2, ![2048, 512]⟩ : Shape).Idx → EReal) (B2 : (⟨1, ![512]⟩ : Shape).Idx → EReal)
    (V : (⟨2, ![512, 1]⟩ : Shape).Idx → EReal) (BV : (⟨1, ![1]⟩ : Shape).Idx → EReal) (i : Fin 64)
    (h0 : ∀ (r : Fin 16) (j : Fin 1024), x0 (ix2 r j) = Q (ix2 (batchRow i r) j))
    (h1 : ∀ (r : Fin 16) (p : Fin 64) (f : Fin 2048), x1 (ix3 r p f) = H (ix3 (batchRow i r) p f))
    (h2 : ∀ (j : Fin 1024) (a : Fin 512), x2 (ix2 j a) = W1 (ix2 j a)) (h3 : ∀ a : Fin 512, x3 (ix2 (0 : Fin 1) a) = B1 (ix1 a))
    (h4 : ∀ (f : Fin 2048) (a : Fin 512), x4 (ix2 f a) = W2 (ix2 f a)) (h5 : ∀ a : Fin 512, x5 (ix2 (0 : Fin 1) a) = B2 (ix1 a))
    (h6 : ∀ a : Fin 512, x6 (ix2 (0 : Fin 1) a) = V (ix2 a (0 : Fin 1)))
    (h7 : x7 (ix2 (0 : Fin 1) (0 : Fin 1)) = BV (ix1 (0 : Fin 1))) (r : Fin 16) (t : Fin 64) :
    k0_pay12 (F := Ideal) (k0_pay11 (scoreBlock x0 x1 x2 x3 x4 x5 x6 x7)) (ix2 r t) = attnOf Q H W1 B1 W2 B2 V BV (batchRow i r) t := by
  rw [blockWeights_apply, blockScores_eq x0 x1 x2 x3 x4 x5 x6 x7 Q H W1 B1 W2 B2 V BV i h0 h1 h2 h3 h4 h5 h6 h7 r]
  rfl

/-- The first output block is the batch entries' context vectors. -/
theorem blockContext_eq (x0 : Vec Ideal S16x1024 .f32) (x1 : Vec Ideal S16x64x2048 .f32) (x2 : Vec Ideal S1024x512 .bf16) (x3 : Vec Ideal S1x512 .f32)
    (x4 : Vec Ideal S2048x512 .bf16) (x5 : Vec Ideal S1x512 .f32) (x6 : Vec Ideal S1x512 .f32) (x7 : Vec Ideal S1x1 .f32)
    (Q : (⟨2, ![1024, 1024]⟩ : Shape).Idx → EReal) (H : (⟨3, ![1024, 64, 2048]⟩ : Shape).Idx → EReal)
    (W1 : (⟨2, ![1024, 512]⟩ : Shape).Idx → EReal) (B1 : (⟨1, ![512]⟩ : Shape).Idx → EReal)
    (W2 : (⟨2, ![2048, 512]⟩ : Shape).Idx → EReal) (B2 : (⟨1, ![512]⟩ : Shape).Idx → EReal)
    (V : (⟨2, ![512, 1]⟩ : Shape).Idx → EReal) (BV : (⟨1, ![1]⟩ : Shape).Idx → EReal) (i : Fin 64)
    (h0 : ∀ (r : Fin 16) (j : Fin 1024), x0 (ix2 r j) = Q (ix2 (batchRow i r) j))
    (h1 : ∀ (r : Fin 16) (p : Fin 64) (f : Fin 2048), x1 (ix3 r p f) = H (ix3 (batchRow i r) p f))
    (h2 : ∀ (j : Fin 1024) (a : Fin 512), x2 (ix2 j a) = W1 (ix2 j a)) (h3 : ∀ a : Fin 512, x3 (ix2 (0 : Fin 1) a) = B1 (ix1 a))
    (h4 : ∀ (f : Fin 2048) (a : Fin 512), x4 (ix2 f a) = W2 (ix2 f a)) (h5 : ∀ a : Fin 512, x5 (ix2 (0 : Fin 1) a) = B2 (ix1 a))
    (h6 : ∀ a : Fin 512, x6 (ix2 (0 : Fin 1) a) = V (ix2 a (0 : Fin 1)))
    (h7 : x7 (ix2 (0 : Fin 1) (0 : Fin 1)) = BV (ix1 (0 : Fin 1))) (r : Fin 16) (f : Fin 2048) :
    k0_pay13 (F := Ideal) (k0_pay11 (scoreBlock x0 x1 x2 x3 x4 x5 x6 x7)) (hiddenChunk0 x1) (hiddenChunk1 x1) (hiddenChunk2 x1)
        (hiddenChunk3 x1) (ix2 r f)
      = ctxOf Q H W1 B1 W2 B2 V BV (batchRow i r) f := by
  have e1 : rows3 x1 r = rows3 H (batchRow i r) := funext fun p => funext fun f => h1 r p f
  rw [blockContext_apply, blockScores_eq x0 x1 x2 x3 x4 x5 x6 x7 Q H W1 B1 W2 B2 V BV i h0 h1 h2 h3 h4 h5 h6 h7 r, e1]
  rfl

end Cert.KernelIdeal.Body

end
-- ==== Proof.KernelArrays.lean ====
/-
  From blocks to arrays: what the kernel's two result arrays hold when the program ends.

  The grid has 64 points; point `t` is given rows `16·t … 16·t + 15` of the query matrix and of the hidden array, and
  the whole of the six parameter arrays as the host lines before the call left them — the two weight matrices through a
  change of float format (the identity on the extended reals), the two bias vectors and the scorer's bias as one-row
  matrices, the scorer transposed into a row. So row `r` of point `t`'s blocks is batch entry `16·t + r`, and what the
  point writes back — rows `16·t …` of the context array and of the `[1024, 64]` weight array — is those entries'
  context vectors and attention weights. Every row lies in exactly the block of point `row / 16`, so the blocks fill both
  arrays. The one host line after the call gives the weight array a trailing unit axis.
-/
import proofs.«110587_j52175262712194_2_alg».proof.Proof.KernelBlockValue
import Idealize.ShloMosaic.Lib.StableHlo.Run
import Idealize.ShloMosaic.Lib.ValueLayout

set_option maxRecDepth 16384

noncomputable section

open scoped BigOperators

namespace Cert.KernelIdeal.ArrayValue

open Idealize.ShloMosaic Idealize.ShloMosaic.TcCoe Idealize.SL.Sem Idealize.ShloMosaic.ValueIdx
open Cert.KernelIdeal Cert.KernelIdeal.Gen Cert.KernelIdeal.Body Cert.RowAttention Cert.LibRank3
open Idealize.ShloMosaic.Pipeline (Dat)

variable (m : (ℓ : Loc nD τ sig) → Buf (Elt Ideal) ℓ) (ρ : Dev nD → PrngReg)

/-! ## The windows' block indices, decided over the grid -/

/-- Point `t` takes block `t` of the query, hidden, context and weight arrays along their first axis, and the one block of
    each parameter array. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- A grid point as a number below 64. -/
def pt (t : Fin cfg0.N) : Fin 64 := ⟨t.val, by have h := t.isLt; have : cfg0.N = 64 := N_0; omega⟩

/-! ## What the host lines before the call leave in the parameter arrays the kernel is given -/

theorem entry_W1 (c : Dev nD) : (V m c main_v0 : S1024x512.Idx → Elt Ideal .bf16)
    = truncf (F := Ideal) .bf16 (m ((c : Thread nD τ).loc main_arg2)) bitsLt_bf16_f32 := by
  show StableHlo.after hostOps0 (fun b => m (c, b)) (Proc.devRef .tc main_v0) = _
  after_results

theorem entry_W2 (c : Dev nD) : (V m c main_v1 : S2048x512.Idx → Elt Ideal .bf16)
    = truncf (F := Ideal) .bf16 (m ((c : Thread nD τ).loc main_arg4)) bitsLt_bf16_f32 := by
  show StableHlo.after hostOps0 (fun b => m (c, b)) (Proc.devRef .tc main_v1) = _
  after_results

theorem entry_b1 (c : Dev nD) : (V m c main_v2 : S1x512.Idx → Elt Ideal .f32)
    = shapeCast S1x512 (m ((c : Thread nD τ).loc main_arg3)) shapeCasts_S512_S1x512 := by
  show StableHlo.after hostOps0 (fun b => m (c, b)) (Proc.devRef .tc main_v2) = _
  after_results
  rfl

theorem entry_b2 (c : Dev nD) : (V m c main_v3 : S1x512.Idx → Elt Ideal .f32)
    = shapeCast S1x512 (m ((c : Thread nD τ).loc main_arg5)) shapeCasts_S512_S1x512 := by
  show StableHlo.after hostOps0 (fun b => m (c, b)) (Proc.devRef .tc main_v3) = _
  after_results
  rfl

theorem entry_V (c : Dev nD) : (V m c main_v4 : S1x512.Idx → Elt Ideal .f32)
    = transpose S1x512 [1, 0] (m ((c : Thread nD τ).loc main_arg6)) transposes_S512x1_S1x512_1_0 := by
  show StableHlo.after hostOps0 (fun b => m (c, b)) (Proc.devRef .tc main_v4) = _
  after_results

theorem entry_bV (c : Dev nD) : (V m c main_v5 : S1x1.Idx → Elt Ideal .f32)
    = shapeCast S1x1 (m ((c : Thread nD τ).loc main_arg7)) shapeCasts_S1_S1x1 := by
  show StableHlo.after hostOps0 (fun b => m (c, b)) (Proc.devRef .tc main_v5) = _
  after_results
  rfl

/-! ## The input blocks at an index -/

theorem iblk0_apply (c : Dev nD) (t : Fin cfg0.N) (r : Fin 16) (j : Fin 1024) :
    (iblk m c 0 t : Vec Ideal S16x1024 .f32) (ix2 r j)
      = m ((c : Thread nD τ).loc main_arg0) (ix2 (batchRow (pt t) r) j) := by
  obtain ⟨e0, e1, -⟩ := idx_facts t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 16 + 1 * r.val = 16 * t.val + r.val; rw [e0]; omega
  | ⟨1, _⟩ => show win0_0.index t (1 : Fin 2) * 1024 + 1 * j.val = j.val; rw [e1]; omega

theorem iblk1_apply (c : Dev nD) (t : Fin cfg0.N) (r : Fin 16) (p : Fin 64) (f : Fin 2048) :
    (iblk m c 1 t : Vec Ideal S16x64x2048 .f32) (ix3 r p f)
      = m ((c : Thread nD τ).loc main_arg1) (ix3 (batchRow (pt t) r) p f) := by
  obtain ⟨-, -, e0, e1, e2, -⟩ := idx_facts t
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t (0 : Fin 3) * 16 + 1 * r.val = 16 * t.val + r.val; rw [e0]; omega
  | ⟨1, _⟩ => show win0_1.index t (1 : Fin 3) * 64 + 1 * p.val = p.val; rw [e1]; omega
  | ⟨2, _⟩ => show win0_1.index t (2 : Fin 3) * 2048 + 1 * f.val = f.val; rw [e2]; omega

theorem iblk2_apply (c : Dev nD) (t : Fin cfg0.N) (j : Fin 1024) (a : Fin 512) :
    (iblk m c 2 t : Vec Ideal S1024x512 .bf16) (ix2 j a) = m ((c : Thread nD τ).loc main_arg2) (ix2 j a) := by
  obtain ⟨-, -, -, -, -, e0, e1, -⟩ := idx_facts t
  unfold iblk
  rw [View.read_apply]
  show V m c main_v0 _ = _
  rw [entry_W1, truncf_apply]
  refine congrArg (m ((c : Thread nD τ).loc main_arg2)) (funext fun ax => Fin.ext ?_)
  match ax with
  | ⟨0, _⟩ => show win0_2.index t (0 : Fin 2) * 1024 + 1 * j.val = j.val; rw [e0]; omega
  | ⟨1, _⟩ => show win0_2.index t (1 : Fin 2) * 512 + 1 * a.val = a.val; rw [e1]; omega

theorem iblk3_apply (c : Dev nD) (t : Fin cfg0.N) (a : Fin 512) :
    (iblk m c 3 t : Vec Ideal S1x512 .f32) (ix2 (0 : Fin 1) a) = m ((c : Thread nD τ).loc main_arg3) (ix1 a) := by
  obtain ⟨-, -, -, -, -, -, -, e0, e1, -⟩ := idx_facts t
  unfold iblk
  rw [View.read_apply]
  show V m c main_v2 _ = _
  have he : ((cfg0.win 3).blk t).view.emb (ix2 (0 : Fin 1) a) = ix2 (0 : Fin 1) a := funext fun ax => Fin.ext (by
    match ax with
    | ⟨0, _⟩ => show win0_3.index t (0 : Fin 2) * 1 + 1 * 0 = 0; rw [e0]
    | ⟨1, _⟩ => show win0_3.index t (1 : Fin 2) * 512 + 1 * a.val = a.val; rw [e1]; omega)
  rw [he, entry_b1, shapeCast_a_1a_apply]

theorem iblk4_apply (c : Dev nD) (t : Fin cfg0.N) (f : Fin 2048) (a : Fin 512) :
    (iblk m c 4 t : Vec Ideal S2048x512 .bf16) (ix2 f a) = m ((c : Thread nD τ).loc main_arg4) (ix2 f a) := by
  obtain ⟨-, -, -, -, -, -, -, -, -, e0, e1, -⟩ := idx_facts t
  unfold iblk
  rw [View.read_apply]
  show V m c main_v1 _ = _
  rw [entry_W2, truncf_apply]
  refine congrArg (m ((c : Thread nD τ).loc main_arg4)) (funext fun ax => Fin.ext ?_)
  match ax with
  | ⟨0, _⟩ => show win0_4.index t (0 : Fin 2) * 2048 + 1 * f.val = f.val; rw [e0]; omega
  | ⟨1, _⟩ => show win0_4.index t (1 : Fin 2) * 512 + 1 * a.val = a.val; rw [e1]; omega

theorem iblk5_apply (c : Dev nD) (t : Fin cfg0.N) (a : Fin 512) :
    (iblk m c 5 t : Vec Ideal S1x512 .f32) (ix2 (0 : Fin 1) a) = m ((c : Thread nD τ).loc main_arg5) (ix1 a) := by
  obtain ⟨-, -, -, -, -, -, -, -, -, -, -, e0, e1, -⟩ := idx_facts t
  unfold iblk
  rw [View.read_apply]
  show V m c main_v3 _ = _
  have he : ((cfg0.win 5).blk t).view.emb (ix2 (0 : Fin 1) a) = ix2 (0 : Fin 1) a := funext fun ax => Fin.ext (by
    match ax with
    | ⟨0, _⟩ => show win0_5.index t (0 : Fin 2) * 1 + 1 * 0 = 0; rw [e0]
    | ⟨1, _⟩ => show win0_5.index t (1 : Fin 2) * 512 + 1 * a.val = a.val; rw [e1]; omega)
  rw [he, entry_b2, shapeCast_a_1a_apply]

theorem iblk6_apply (c : Dev nD) (t : Fin cfg0.N) (a : Fin 512) :
    (iblk m c 6 t : Vec Ideal S1x512 .f32) (ix2 (0 : Fin 1) a) = m ((c : Thread nD τ).loc main_arg6) (ix2 a (0 : Fin 1)) := by
  obtain ⟨-, -, -, -, -, -, -, -, -, -, -, -, -, e0, e1, -⟩ := idx_facts t
  unfold iblk
  rw [View.read_apply]
  show V m c main_v4 _ = _
  have he : ((cfg0.win 6).blk t).view.emb (ix2 (0 : Fin 1) a) = ix2 (0 : Fin 1) a := funext fun ax => Fin.ext (by
    match ax with
    | ⟨0, _⟩ => show win0_6.index t (0 : Fin 2) * 1 + 1 * 0 = 0; rw [e0]
    | ⟨1, _⟩ => show win0_6.index t (1 : Fin 2) * 512 + 1 * a.val = a.val; rw [e1]; omega)
  rw [he, entry_V, transpose_ix2_apply]

theorem iblk7_apply (c : Dev nD) (t : Fin cfg0.N) :
    (iblk m c 7 t : Vec Ideal S1x1 .f32) (ix2 (0 : Fin 1) (0 : Fin 1)) = m ((c : Thread nD τ).loc main_arg7) (ix1 (0 : Fin 1)) := by
  obtain ⟨-, -, -, -, -, -, -, -, -, -, -, -, -, -, -, e0, e1, -⟩ := idx_facts t
  unfold iblk
  rw [View.read_apply]
  show V m c main_v5 _ = _
  have he : ((cfg0.win 7).blk t).view.emb (ix2 (0 : Fin 1) (0 : Fin 1)) = ix2 (0 : Fin 1) (0 : Fin 1) := funext fun ax => Fin.ext (by
    match ax with
    | ⟨0, _⟩ => show win0_7.index t (0 : Fin 2) * 1 + 1 * 0 = 0; rw [e0]
    | ⟨1, _⟩ => show win0_7.index t (1 : Fin 2) * 1 + 1 * 0 = 0; rw [e1])
  rw [he, entry_bV, shapeCast_a_1a_apply]

/-! ## The result arrays -/

/-- The `[1024, 64]` array of attention weights the kernel writes, before the host gives it a trailing unit axis. -/
def weightArray (c : Dev nD) : S1024x64.Idx → EReal :=
  fun i => attnOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) ⟨(i 0).val, idx2_lt0 i⟩ ⟨(i 1).val, idx2_lt1 i⟩

/-- The `[1024, 2048]` array of context vectors. -/
def contextArray (c : Dev nD) : S1024x2048.Idx → EReal :=
  fun i => ctxOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) ⟨(i 0).val, idx2_lt0 i⟩ ⟨(i 1).val, idx2_lt1 i⟩

/-- What point `t` writes back of the weights is block `t` of the weight array. -/
theorem flushed_weights (c : Dev nD) (t : Fin cfg0.N) :
    (dats m 0 c).flushed 9 t = ((cfg0.win 9).blk t).view.read (Elt Ideal) (weightArray m c) := by
  obtain ⟨-, -, -, -, -, -, -, -, -, -, -, -, -, -, -, -, -, -, -, e0, e1⟩ := idx_facts t
  show (cfg0.win 9).cut (grid0.coords t) ((dats m 0 c).after 9 t) = _
  rw [after0_9]
  unfold outsAt0
  rw [weights_block (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (iblk m c 6 t) (iblk m c 7 t)]
  funext j
  obtain ⟨r, p, rfl⟩ : ∃ (r : Fin 16) (p : Fin 64), j = ix2 r p := ⟨j 0, j 1, eq_ix2 j⟩
  refine (blockWeights_eq (iblk m c 0 t) (iblk m c 1 t) (iblk m c 2 t) (iblk m c 3 t) (iblk m c 4 t) (iblk m c 5 t) (iblk m c 6 t) (iblk m c 7 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (pt t) (iblk0_apply m c t) (iblk1_apply m c t) (iblk2_apply m c t) (iblk3_apply m c t) (iblk4_apply m c t) (iblk5_apply m c t) (iblk6_apply m c t) (iblk7_apply m c t) r p).trans ?_
  show _ = weightArray m c (((cfg0.win 9).blk t).view.emb (ix2 r p))
  unfold weightArray
  refine congrArg₂ (attnOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (Fin.ext ?_) (Fin.ext ?_)
  · show 16 * t.val + r.val = win0_9.index t (0 : Fin 2) * 16 + 1 * r.val; rw [e0]; omega
  · show p.val = win0_9.index t (1 : Fin 2) * 64 + 1 * p.val; rw [e1]; omega

/-- What point `t` writes back of the context vectors is block `t` of the context array. -/
theorem flushed_context (c : Dev nD) (t : Fin cfg0.N) :
    (dats m 0 c).flushed 8 t = ((cfg0.win 8).blk t).view.read (Elt Ideal) (contextArray m c) := by
  obtain ⟨-, -, -, -, -, -, -, -, -, -, -, -, -, -, -, -, -, e0, e1, -⟩ := idx_facts t
  show (cfg0.win 8).cut (grid0.coords t) ((dats m 0 c).after 8 t) = _
  rw [after0_8]
  unfold outsAt0
  rw [context_block (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (iblk m c 6 t) (iblk m c 7 t)]
  funext j
  obtain ⟨r, f, rfl⟩ : ∃ (r : Fin 16) (f : Fin 2048), j = ix2 r f := ⟨j 0, j 1, eq_ix2 j⟩
  refine (blockContext_eq (iblk m c 0 t) (iblk m c 1 t) (iblk m c 2 t) (iblk m c 3 t) (iblk m c 4 t) (iblk m c 5 t) (iblk m c 6 t) (iblk m c 7 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (pt t) (iblk0_apply m c t) (iblk1_apply m c t) (iblk2_apply m c t) (iblk3_apply m c t) (iblk4_apply m c t) (iblk5_apply m c t) (iblk6_apply m c t) (iblk7_apply m c t) r f).trans ?_
  show _ = contextArray m c (((cfg0.win 8).blk t).view.emb (ix2 r f))
  unfold contextArray
  refine congrArg₂ (ctxOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (Fin.ext ?_) (Fin.ext ?_)
  · show 16 * t.val + r.val = win0_8.index t (0 : Fin 2) * 16 + 1 * r.val; rw [e0]; omega
  · show f.val = win0_8.index t (1 : Fin 2) * 2048 + 1 * f.val; rw [e1]; omega

/-- The point whose block holds row `b`. -/
def pointOf (b : ℕ) (hb : b < 1024) : Fin cfg0.N := ⟨b / 16, by have : cfg0.N = 64 := N_0; omega⟩

/-- Every index of the weight array is in the block of the point its row belongs to. -/
theorem weights_covered (i : S1024x64.Idx) :
    ∃ t : Fin cfg0.N, (cfg0.win 9).flush t = true ∧ i ∈ ((cfg0.win 9).blk t).view.set := by
  have h0 : (i 0).val < 1024 := idx2_lt0 i
  have h1 : (i 1).val < 64 := idx2_lt1 i
  refine ⟨pointOf (i 0).val h0, flush0_9 _, ?_⟩
  obtain ⟨-, -, -, -, -, -, -, -, -, -, -, -, -, -, -, -, -, -, -, e0, e1⟩ := idx_facts (pointOf (i 0).val h0)
  show i ∈ ((View.whole main_v6_1).slice (win0_9.rect (pointOf (i 0).val h0))).set
  rw [View.set_slice_whole, Rect.mem_set_unit]
  intro a
  match a with
  | ⟨0, _⟩ =>
    show win0_9.index (pointOf (i 0).val h0) (0 : Fin 2) * 16 ≤ (i 0).val
      ∧ (i 0).val < win0_9.index (pointOf (i 0).val h0) (0 : Fin 2) * 16 + 16
    rw [e0]; show (i 0).val / 16 * 16 ≤ (i 0).val ∧ (i 0).val < (i 0).val / 16 * 16 + 16; omega
  | ⟨1, _⟩ =>
    show win0_9.index (pointOf (i 0).val h0) (1 : Fin 2) * 64 ≤ (i 1).val
      ∧ (i 1).val < win0_9.index (pointOf (i 0).val h0) (1 : Fin 2) * 64 + 64
    rw [e1]; omega

/-- Every index of the context array is in the block of the point its row belongs to. -/
theorem context_covered (i : S1024x2048.Idx) :
    ∃ t : Fin cfg0.N, (cfg0.win 8).flush t = true ∧ i ∈ ((cfg0.win 8).blk t).view.set := by
  have h0 : (i 0).val < 1024 := idx2_lt0 i
  have h1 : (i 1).val < 2048 := idx2_lt1 i
  refine ⟨pointOf (i 0).val h0, flush0_8 _, ?_⟩
  obtain ⟨-, -, -, -, -, -, -, -, -, -, -, -, -, -, -, -, -, e0, e1, -⟩ := idx_facts (pointOf (i 0).val h0)
  show i ∈ ((View.whole main_v6_0).slice (win0_8.rect (pointOf (i 0).val h0))).set
  rw [View.set_slice_whole, Rect.mem_set_unit]
  intro a
  match a with
  | ⟨0, _⟩ =>
    show win0_8.index (pointOf (i 0).val h0) (0 : Fin 2) * 16 ≤ (i 0).val
      ∧ (i 0).val < win0_8.index (pointOf (i 0).val h0) (0 : Fin 2) * 16 + 16
    rw [e0]; show (i 0).val / 16 * 16 ≤ (i 0).val ∧ (i 0).val < (i 0).val / 16 * 16 + 16; omega
  | ⟨1, _⟩ =>
    show win0_8.index (pointOf (i 0).val h0) (1 : Fin 2) * 2048 ≤ (i 1).val
      ∧ (i 1).val < win0_8.index (pointOf (i 0).val h0) (1 : Fin 2) * 2048 + 2048
    rw [e1]; omega

/-- The weight array after the last point. -/
theorem final_weights (c : Dev nD) : (dats m 0 c).arrAt 9 cfg0.N = weightArray m c :=
  (dats m 0 c).arrAt_eq_of_cover 9 (weightArray m c) (fun t _ => flushed_weights m c t) (weights_covered)

/-- The context array after the last point. -/
theorem final_context (c : Dev nD) : (dats m 0 c).arrAt 8 cfg0.N = contextArray m c :=
  (dats m 0 c).arrAt_eq_of_cover 8 (contextArray m c) (fun t _ => flushed_context m c t) (context_covered)

/-- The context array is the first result of the specification. -/
theorem contextArray_eq (c : Dev nD) : contextArray m c = ctxResult (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := rfl

/-- The host line after the call: the weight array with a trailing unit axis is the second result of the specification. -/
theorem tail_weights (c : Dev nD) :
    Pipeline.afterTail₀ cfgs (dats m) 0 (V0 m) [hostOps1] c main_v7 = attnResult (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  unfold Pipeline.afterTail₀
  show StableHlo.after hostOps1 _ (Proc.devRef .tc main_v7) = _
  after_results
  rw [Pipeline.withArrays_arr spec0 launch0.win.arr_inj c _ _ 9, final_weights]
  funext i
  obtain ⟨b, p, u, rfl⟩ : ∃ (b : Fin 1024) (p : Fin 64) (u : Fin 1), i = ix3 b p u := ⟨i 0, i 1, i 2, eq_ix3 i⟩
  show shapeCast S1024x64x1 (weightArray m c) shapeCasts_S1024x64_S1024x64x1 (ix3 b p u) = _
  rw [shapeCast_ab_ab1_apply]
  rfl

/-! ## The run, read -/

/-- Every weakly fair execution of the program ends with the two results at the specification's functions of the
    argument arrays, and the argument arrays unchanged. -/
theorem run : θ_run defs (onTc (τ := τ) (main (F := Ideal))) ⟨m, fun _ => 0, ρ⟩ fun r => ∀ c : Dev nD,
      r.2.mem ((c.tc : Thread nD τ).loc main_v6_0) = ctxResult (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v7) = attnResult (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).1 8).trans ((final_context m c).trans (contextArray_eq m c)),
      ((h c).2 main_v7 (Pipeline.mem_restRefs_of main_v7 (by decide) (by decide))).trans (tail_weights m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.ArrayValue

end
-- ==== Proof.lean ====
/- Additive attention, fused into one kernel, against its plain reference.

   For each of 1024 batch entries both programs compute, from a query row `q` and 64 hidden rows `h t`, the scores
   `(∑ a, tanh ((q·W1 + b1) a + (h t·W2 + b2) a) · V a) + bV`, their softmax along the sequence (the largest score
   subtracted before exponentiating) and the context vector `∑ t, weight t · h t`. The kernel takes sixteen batch entries
   per grid point and walks the sequence in four chunks of sixteen positions, keeping the scores in a scratch buffer; the
   reference works on the whole arrays. On the extended reals the changes of float format are the identity, the matrix
   unit's products into a zero accumulator and the host's contractions are the same sums, and the chunked context sum is
   the whole sum regrouped — additions only, so no finiteness of the inputs is used.

   Proof/RowAttention.lean states the two results as functions of the eight argument arrays. Proof/RefSide.lean shows the
   reference's results are those functions; Proof/KernelPieces.lean, KernelPayloads.lean, KernelSoftmax.lean and
   KernelBlockValue.lean show one run of the kernel body leaves them, block by block; Proof/KernelArrays.lean shows the
   blocks fill the result arrays and reads the host line after the call. The kernel's frames are the generated ones; the
   reference's frame is its generated run with the results dropped. -/
import proofs.«110587_j52175262712194_2_alg».proof.Defs
import proofs.«110587_j52175262712194_2_alg».proof.Proof.Gen.Kernel
import proofs.«110587_j52175262712194_2_alg».proof.Proof.Gen.Kernel.Frame
import proofs.«110587_j52175262712194_2_alg».proof.Proof.Gen.KernelIdeal
import proofs.«110587_j52175262712194_2_alg».proof.Proof.Gen.KernelIdeal.Frame
import proofs.«110587_j52175262712194_2_alg».proof.Proof.Gen.ReferenceIdeal
import proofs.«110587_j52175262712194_2_alg».proof.Proof.Gen.Pre_finite_inputs
import proofs.«110587_j52175262712194_2_alg».proof.Proof.RefSide
import proofs.«110587_j52175262712194_2_alg».proof.Proof.KernelArrays
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference runs and leaves its arguments unchanged: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both programs end with the context vectors and the attention weights of the same argument arrays. -/
theorem algebraic : Cert.algebraic_KernelIdeal_ReferenceIdeal := by
  intro m ρ m' ρ' _ hagree
  refine ⟨_, _, Cert.KernelIdeal.ArrayValue.run m ρ, ?_⟩
  refine (θ_run Cert.ReferenceIdeal.defs _ _).mono (fun _ h c => ?_) (Cert.ReferenceIdeal.Value.run (F := Ideal) m' ρ')
  have ha := hagree c
  refine ⟨?_, ?_, (h c).2.2⟩
  · rw [(h c).1, Cert.ReferenceIdeal.Read.val_main_v29_eq, Cert.ReferenceIdeal.RefValue.ctx_eq, ha.1, ha.2.1, ha.2.2.1,
      ha.2.2.2.1, ha.2.2.2.2.1, ha.2.2.2.2.2.1, ha.2.2.2.2.2.2.1, ha.2.2.2.2.2.2.2]
  · rw [(h c).2.1, Cert.ReferenceIdeal.Read.val_main_v26_eq, Cert.ReferenceIdeal.RefValue.attn_eq, ha.1, ha.2.1, ha.2.2.1,
      ha.2.2.2.1, ha.2.2.2.2.1, ha.2.2.2.2.2.1, ha.2.2.2.2.2.2.1, ha.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
